-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S128 .f32) (main_arg13 : FVec F S128x64 .f32) (main_arg14 : FVec F S64 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x64 .f32 := Host.absf main_arg13
  let main_cst_22 : FVec F S_ .f32 := constant S_ .f32 0x7F800000#32
  let main_v60 : FVec F S128x64 .f32 := broadcastInDim S128x64 ![] bcast_S_S128x64 main_cst_22
  let main_v61 : IVec S128x64 1 := cmpf .olt main_v59 main_v60
  let main_c_23 : IVec S_ 1 := constantI S_ 1 1#1
  let main_v62 : IVec S_ 1 := (fun x v => Host.reduce IntOp.andi x v reducesTo_S128x64_S_d0_1 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_v63 main_v67

def fn_part2 {F : FTy → Type} [FloatOps F] (main_arg8 : FVec F S128x64 .f32) (main_arg9 : FVec F S128x64 .f32) (main_arg10 : FVec F S64 .f32) (main_arg11 : FVec F S128x128 .f32) (main_arg12 : FVec F S128 .f32) (main_arg13 : FVec F S128x64 .f32) (main_arg14 : FVec F S64 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S128x64 .f32 := Host.absf main_arg9
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg12 main_arg13 main_arg14 main_v48 main_v49 main_v50

def fn_part1 {F : FTy → Type} [FloatOps F] (main_arg5 : FVec F S128x128 .f32) (main_arg6 : FVec F S128x128 .f32) (main_arg7 : FVec F S128 .f32) (main_arg8 : FVec F S128x64 .f32) (main_arg9 : FVec F S128x64 .f32) (main_arg10 : FVec F S64 .f32) (main_arg11 : FVec F S128x128 .f32) (main_arg12 : FVec F S128 .f32) (main_arg13 : FVec F S128x64 .f32) (main_arg14 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S50000x128 .f32) (main_arg1 : IVec S2x800000 32) (main_arg2 : FVec F S128x128 .f32) (main_arg3 : FVec F S128x128 .f32) (main_arg4 : FVec F S128 .f32) (main_arg5 : FVec F S128x128 .f32) (main_arg6 : FVec F S128x128 .f32) (main_arg7 : FVec F S128 .f32) (main_arg8 : FVec F S128x64 .f32) (main_arg9 : FVec F S128x64 .f32) (main_arg10 : FVec F S64 .f32) (main_arg11 : FVec F S128x128 .f32) (main_arg12 : FVec F S128 .f32) (main_arg13 : FVec F S128x64 .f32) (main_arg14 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S2000x128 : Shape := ⟨2, ![2000, 128]⟩
abbrev S1x64 : Shape := ⟨2, ![1, 64]⟩
abbrev S50000x64 : Shape := ⟨2, ![50000, 64]⟩
abbrev S2000x64 : Shape := ⟨2, ![2000, 64]⟩

abbrev nBuf : Space → Nat
  | .hbm => 102
  | .vmem => 35
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S128x64, .f32⟩
  | .hbm, ⟨10, _⟩ => ⟨S64, .f32⟩
  | .hbm, ⟨11, _⟩ => ⟨S128x128, .f32⟩
  | .hbm, ⟨12, _⟩ => ⟨S128, .f32⟩
  | .hbm, ⟨13, _⟩ => ⟨S128x64, .f32⟩
  | .hbm, ⟨14, _⟩ => ⟨S64, .f32⟩
  | .hbm, ⟨15, _⟩ => ⟨S1x800000, .i32⟩
  | .hbm, ⟨16, _⟩ => ⟨S800000, .i32⟩
  | .hbm, ⟨17, _⟩ => ⟨S1x800000, .i32⟩
  | .hbm, ⟨18, _⟩ => ⟨S800000, .i32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S800000x128, .f32⟩
  | .hbm, ⟨28, _⟩ => ⟨S_, .f32⟩
  | .hbm, ⟨29, _⟩ => ⟨S50000x128, .f32⟩
  | .hbm, ⟨30, _⟩ => ⟨S800000x1, .i32⟩
  | .hbm, ⟨31, _⟩ => ⟨S50000x128, .f32⟩
  | .hbm, ⟨32, _⟩ => ⟨S_, .f32⟩
  | .hbm, ⟨33, _⟩ => ⟨S800000, .f32⟩
  | .hbm, ⟨34, _⟩ => ⟨S_, .f32⟩
  | .hbm, ⟨35, _⟩ => ⟨S50000, .f32⟩
  | .hbm, ⟨36, _⟩ => ⟨S800000x1, .i32⟩
  | .hbm, ⟨37, _⟩ => ⟨S50000, .f32⟩
  | .hbm, ⟨38, _⟩ => ⟨S_, .f32⟩
  | .hbm, ⟨39, _⟩ => ⟨S50000, .f32⟩
  | .hbm, ⟨40, _⟩ => ⟨S50000, .f32⟩
  | .hbm, ⟨41, _⟩ => ⟨S50000x1, .f32⟩
  | .hbm, ⟨42, _⟩ => ⟨S50000x128, .f32⟩
  | .hbm, ⟨43, _⟩ => ⟨S50000x128, .f32⟩
  | .hbm, ⟨44, _⟩ => ⟨S1x128, .f32⟩
  | .hbm, ⟨45, _⟩ => ⟨S50000x128, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x128, .f32⟩
  | .hbm, ⟨55, _⟩ => ⟨S_, .f32⟩
  | .hbm, ⟨56, _⟩ => ⟨S50000x128, .f32⟩
  | .hbm, ⟨57, _⟩ => ⟨S800000x1, .i32⟩
  | .hbm, ⟨58, _⟩ => ⟨S50000x128, .f32⟩
  | .hbm, ⟨59, _⟩ => ⟨S_, .f32⟩
  | .hbm, ⟨60, _⟩ => ⟨S800000, .f32⟩
  | .hbm, ⟨61, _⟩ => ⟨S_, .f32⟩
  | .hbm, ⟨62, _⟩ => ⟨S50000, .f32⟩
  | .hbm, ⟨63, _⟩ => ⟨S800000x1, .i32⟩
  | .hbm, ⟨64, _⟩ => ⟨S50000, .f32⟩
  | .hbm, ⟨65, _⟩ => ⟨S_, .f32⟩
  | .hbm, ⟨66, _⟩ => ⟨S50000, .f32⟩
  | .hbm, ⟨67, _⟩ => ⟨S50000, .f32⟩
  | .hbm, ⟨68, _⟩ => ⟨S50000x1, .f32⟩
  | .hbm, ⟨69, _⟩ => ⟨S50000x128, .f32⟩
  | .hbm, ⟨70, _⟩ => ⟨S50000x128, .f32⟩
  | .hbm, ⟨71, _⟩ => ⟨S1x128, .f32⟩
  | .hbm, ⟨72, _⟩ => ⟨S1x128, .f32⟩
  | .hbm, ⟨73, _⟩ => ⟨S50000x128, .f32⟩
  | .hbm, ⟨74, _⟩ => ⟨S_, .i32⟩
  | .hbm, ⟨75, _⟩ => ⟨S800000, .i32⟩
  | .hbm, ⟨76, _⟩ => ⟨S800000, .i1⟩
  | .hbm, ⟨77, _⟩ => ⟨S_, .i32⟩
  | .hbm, ⟨78, _⟩ => ⟨S800000, .i32⟩
  | .hbm, ⟨79, _⟩ => ⟨S800000, .i32⟩
  | .hbm, ⟨80, _⟩ => ⟨S800000, .i32⟩
  | .hbm, ⟨81, _⟩ => ⟨S800000x1, .i32⟩
  | .hbm, ⟨82, _⟩ => ⟨S800000x128, .f32⟩
  | .hbm, ⟨83, _⟩ => ⟨S_, .f32⟩
  | .hbm, ⟨84, _⟩ => ⟨S50000x128, .f32⟩
  | .hbm, ⟨85, _⟩ => ⟨S800000x1, .i32⟩
  | .hbm, ⟨86, _⟩ => ⟨S50000x128, .f32⟩
  | .hbm, ⟨87, _⟩ => ⟨S_, .f32⟩
  | .hbm, ⟨88, _⟩ => ⟨S800000, .f32⟩
  | .hbm, ⟨89, _⟩ => ⟨S_, .f32⟩
  | .hbm, ⟨90, _⟩ => ⟨S50000, .f32⟩
  | .hbm, ⟨91, _⟩ => ⟨S800000x1, .i32⟩
  | .hbm, ⟨92, _⟩ => ⟨S50000, .f32⟩
  | .hbm, ⟨93, _⟩ => ⟨S_, .f32⟩
  | .hbm, ⟨94, _⟩ => ⟨S50000, .f32⟩
  | .hbm, ⟨95, _⟩ => ⟨S50000, .f32⟩
  | .hbm, ⟨96, _⟩ => ⟨S50000x1, .f32⟩
  | .hbm, ⟨97, _⟩ => ⟨S50000x128, .f32⟩
  | .hbm, ⟨98, _⟩ => ⟨S50000x128, .f32⟩
  | .hbm, ⟨99, _⟩ => ⟨S1x64, .f32⟩
  | .hbm, ⟨100, _⟩ => ⟨S1x64, .f32⟩
  | .hbm, ⟨101, _⟩ => ⟨S50000x64, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S128x128, .f32⟩
  | .local _ .vmem, ⟨16, _⟩ => ⟨S128x128, .f32⟩
  | .local _ .vmem, ⟨17, _⟩ => ⟨S1x128, .f32⟩
  | .local _ .vmem, ⟨18, _⟩ => ⟨S128x128, .f32⟩
  | .local _ .vmem, ⟨19, _⟩ => ⟨S1x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S128x64, .f32⟩
  | .local _ .vmem, ⟨29, _⟩ => ⟨S128x64, .f32⟩
  | .local _ .vmem, ⟨30, _⟩ => ⟨S1x64, .f32⟩
  | .local _ .vmem, ⟨31, _⟩ => ⟨S128x64, .f32⟩
  | .local _ .vmem, ⟨32, _⟩ => ⟨S1x64, .f32⟩
  | .local _ .vmem, ⟨33, _⟩ => ⟨S2000x64, .f32⟩
  | .local _ .vmem, ⟨34, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_1 : Ref sig .tc := ⟨.hbm, 32, rfl⟩
abbrev main_v14 : Ref sig .tc := ⟨.hbm, 33, rfl⟩
abbrev main_cst_2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_c_4 : Ref sig .tc := ⟨.hbm, 46, rfl⟩
abbrev main_v25 : Ref sig .tc := ⟨.hbm, 47, rfl⟩
abbrev main_v26 : Ref sig .tc := ⟨.hbm, 48, rfl⟩
abbrev main_c_5 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_6 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_7 : Ref sig .tc := ⟨.hbm, 59, rfl⟩
abbrev main_v35 : Ref sig .tc := ⟨.hbm, 60, rfl⟩
abbrev main_cst_8 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_9 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_c_10 : Ref sig .tc := ⟨.hbm, 74, rfl⟩
abbrev main_v47 : Ref sig .tc := ⟨.hbm, 75, rfl⟩
abbrev main_v48 : Ref sig .tc := ⟨.hbm, 76, rfl⟩
abbrev main_c_11 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_12 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_13 : Ref sig .tc := ⟨.hbm, 87, rfl⟩
abbrev main_v57 : Ref sig .tc := ⟨.hbm, 88, rfl⟩
abbrev main_cst_14 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_15 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg8_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg7_0 : Ref sig .tc := ⟨.vmem, 32, rfl⟩
abbrev cc2_stg8_0 : Ref sig .tc := ⟨.vmem, 33, rfl⟩
abbrev cc2_stg8_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem8_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem7_0 : DmaSem sig := 32
abbrev cc2_sem8_0 : DmaSem sig := 33
abbrev cc2_sem8_1 : DmaSem sig := 34

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S2000x64 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  iota_S2000x64_d1_w32 : S2000x64.Iotas .tc 32 [1]
  inb_S2000x64_S2000x64_0_0 : ∀ a, (![0, 0] : Fin 2 → Nat) a + S2000x64.size a ≤ S2000x64.size a
  h_S2000x64 : 0 < S2000x64.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x128.size a ≤ S50000x128.size a
  hwx1_8 : ∀ i : grid1.Coords, EltTy.bits .f32 = 32 ∨ (Rect.block (s := S50000x128) S2000x128.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x64.size a ≤ S128x64.size a
  hwx2_4 : ∀ i : grid2.Coords, EltTy.bits .f32 = 32 ∨ (Rect.block (s := S128x64) S128x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x64.size a ≤ S128x64.size a
  hwx2_6 : ∀ i : grid2.Coords, EltTy.bits .f32 = 32 ∨ (Rect.block (s := S128x64) S128x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x64.size a ≤ S1x64.size a
  hwx2_7 : ∀ i : grid2.Coords, EltTy.bits .f32 = 32 ∨ (Rect.block (s := S1x64) S1x64.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S2000x64.size a ≤ S50000x64.size a
  hwx2_8 : ∀ i : grid2.Coords, EltTy.bits .f32 = 32 ∨ (Rect.block (s := S50000x64) S2000x64.size (cc2_transform_8 i) (hinb2_8 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_v22) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v24) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg11) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v45) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v46) S2000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v46) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v65) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg0) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S128x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v66) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg13) S128x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v67) S1x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v68) S2000x64.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S50000x64 : Shape := ⟨2, ![50000, 64]⟩
abbrev S1x64 : Shape := ⟨2, ![1, 64]⟩
abbrev S50000x8 : Shape := ⟨2, ![50000, 8]⟩
abbrev S1 : Shape := ⟨1, ![1]⟩

abbrev nBuf : Space → Nat
  | .hbm => 140
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128x128, .f32⟩
  | 4 => ⟨S128, .f32⟩
  | 5 => ⟨S128x128, .f32⟩
  | 6 => ⟨S128x128, .f32⟩
  | 7 => ⟨S128, .f32⟩
  | 8 => ⟨S128x64, .f32⟩
  | 9 => ⟨S128x64, .f32⟩
  | 10 => ⟨S64, .f32⟩
  | 11 => ⟨S128x128, .f32⟩
  | 12 => ⟨S128, .f32⟩
  | 13 => ⟨S128x64, .f32⟩
  | 14 => ⟨S64, .f32⟩
  | 15 => ⟨S1x800000, .i32⟩
  | 16 => ⟨S800000, .i32⟩
  | 17 => ⟨S1x800000, .i32⟩
  | 18 => ⟨S800000, .i32⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S800000x128, .f32⟩
  | 28 => ⟨S_, .f32⟩
  | 29 => ⟨S50000x128, .f32⟩
  | 30 => ⟨S800000x1, .i32⟩
  | 31 => ⟨S50000x128, .f32⟩
  | 32 => ⟨S_, .f32⟩
  | 33 => ⟨S800000, .f32⟩
  | 34 => ⟨S_, .f32⟩
  | 35 => ⟨S50000, .f32⟩
  | 36 => ⟨S800000x1, .i32⟩
  | 37 => ⟨S50000, .f32⟩
  | 38 => ⟨S_, .f32⟩
  | 39 => ⟨S50000, .f32⟩
  | 40 => ⟨S50000, .f32⟩
  | 41 => ⟨S50000x1, .f32⟩
  | 42 => ⟨S50000x128, .f32⟩
  | 43 => ⟨S50000x128, .f32⟩
  | 44 => ⟨S50000x128, .f32⟩
  | 45 => ⟨S50000x128, .f32⟩
  | 46 => ⟨S50000x128, .f32⟩
  | 47 => ⟨S1x128, .f32⟩
  | 48 => ⟨S50000x128, .f32⟩
  | 49 => ⟨S50000x128, .f32⟩
  | 50 => ⟨S_, .f32⟩
  | 51 => ⟨S50000x128, .f32⟩
  | 52 => ⟨S50000x128, .f32⟩
  | 53 => ⟨S_, .i32⟩
  | 54 => ⟨S800000, .i32⟩
  | 55 => ⟨S800000, .i1⟩
  | 56 => ⟨S_, .i32⟩
  | 57 => ⟨S800000, .i32⟩
  | 58 => ⟨S800000, .i32⟩
  | 59 => ⟨S800000, .i32⟩
  | 60 => ⟨S800000x1, .i32⟩
  | 61 => ⟨S800000x128, .f32⟩
  | 62 => ⟨S_, .f32⟩
  | 63 => ⟨S50000x128, .f32⟩
  | 64 => ⟨S800000x1, .i32⟩
  | 65 => ⟨S50000x128, .f32⟩
  | 66 => ⟨S_, .f32⟩
  | 67 => ⟨S800000, .f32⟩
  | 68 => ⟨S_, .f32⟩
  | 69 => ⟨S50000, .f32⟩
  | 70 => ⟨S800000x1, .i32⟩
  | 71 => ⟨S50000, .f32⟩
  | 72 => ⟨S_, .f32⟩
  | 73 => ⟨S50000, .f32⟩
  | 74 => ⟨S50000, .f32⟩
  | 75 => ⟨S50000x1, .f32⟩
  | 76 => ⟨S50000x128, .f32⟩
  | 77 => ⟨S50000x128, .f32⟩
  | 78 => ⟨S50000x128, .f32⟩
  | 79 => ⟨S50000x128, .f32⟩
  | 80 => ⟨S50000x128, .f32⟩
  | 81 => ⟨S1x128, .f32⟩
  | 82 => ⟨S50000x128, .f32⟩
  | 83 => ⟨S50000x128, .f32⟩
  | 84 => ⟨S_, .f32⟩
  | 85 => ⟨S50000x128, .f32⟩
  | 86 => ⟨S50000x128, .f32⟩
  | 87 => ⟨S50000x128, .f32⟩
  | 88 => ⟨S1x128, .f32⟩
  | 89 => ⟨S50000x128, .f32⟩
  | 90 => ⟨S50000x128, .f32⟩
  | 91 => ⟨S50000x128, .f32⟩
  | 92 => ⟨S_, .i32⟩
  | 93 => ⟨S800000, .i32⟩
  | 94 => ⟨S800000, .i1⟩
  | 95 => ⟨S_, .i32⟩
  | 96 => ⟨S800000, .i32⟩
  | 97 => ⟨S800000, .i32⟩
  | 98 => ⟨S800000, .i32⟩
  | 99 => ⟨S800000x1, .i32⟩
  | 100 => ⟨S800000x128, .f32⟩
  | 101 => ⟨S_, .f32⟩
  | 102 => ⟨S50000x128, .f32⟩
  | 103 => ⟨S800000x1, .i32⟩
  | 104 => ⟨S50000x128, .f32⟩
  | 105 => ⟨S_, .f32⟩
  | 106 => ⟨S800000, .f32⟩
  | 107 => ⟨S_, .f32⟩
  | 108 => ⟨S50000, .f32⟩
  | 109 => ⟨S800000x1, .i32⟩
  | 110 => ⟨S50000, .f32⟩
  | 111 => ⟨S_, .f32⟩
  | 112 => ⟨S50000, .f32⟩
  | 113 => ⟨S50000, .f32⟩
  | 114 => ⟨S50000x1, .f32⟩
  | 115 => ⟨S50000x128, .f32⟩
  | 116 => ⟨S50000x128, .f32⟩
  | 117 => ⟨S50000x64, .f32⟩
  | 118 => ⟨S50000x64, .f32⟩
  | 119 => ⟨S50000x64, .f32⟩
  | 120 => ⟨S1x64, .f32⟩
  | 121 => ⟨S50000x64, .f32⟩
  | 122 => ⟨S50000x64, .f32⟩
  | 123 => ⟨S50000x64, .f32⟩
  | 124 => ⟨S1x64, .f32⟩
  | 125 => ⟨S50000x64, .f32⟩
  | 126 => ⟨S50000x64, .f32⟩
  | 127 => ⟨S50000x64, .f32⟩
  | _ => ⟨S50000x128, .f32⟩

abbrev hbmTy0_1 (i : Nat) : BufTy := match i % 128 with
  | 0 => ⟨S50000x8, .f32⟩
  | 1 => ⟨S50000x8, .f32⟩
  | 2 => ⟨S50000x8, .f32⟩
  | 3 => ⟨S_, .f32⟩
  | 4 => ⟨S50000x8, .f32⟩
  | 5 => ⟨S50000x8, .f32⟩
  | 6 => ⟨S_, .f32⟩
  | 7 => ⟨S50000x8, .f32⟩
  | 8 => ⟨S50000x8, .f32⟩
  | 9 => ⟨S_, .i32⟩
  | 10 => ⟨S1, .i32⟩
  | 11 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_1 : Ref sig .tc := ⟨.hbm, 32, rfl⟩
abbrev main_v14 : Ref sig .tc := ⟨.hbm, 33, rfl⟩
abbrev main_cst_2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_call0_cst : Ref sig .tc := ⟨.hbm, 50, rfl⟩
abbrev main_call0_v0 : Ref sig .tc := ⟨.hbm, 51, rfl⟩
abbrev main_v29 : Ref sig .tc := ⟨.hbm, 52, rfl⟩
abbrev main_c_4 : Ref sig .tc := ⟨.hbm, 53, rfl⟩
abbrev main_v30 : Ref sig .tc := ⟨.hbm, 54, rfl⟩
abbrev main_v31 : Ref sig .tc := ⟨.hbm, 55, rfl⟩
abbrev main_c_5 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_6 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_7 : Ref sig .tc := ⟨.hbm, 66, rfl⟩
abbrev main_v40 : Ref sig .tc := ⟨.hbm, 67, rfl⟩
abbrev main_cst_8 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_9 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_call1_cst : Ref sig .tc := ⟨.hbm, 84, rfl⟩
abbrev main_call1_v0 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_c_10 : Ref sig .tc := ⟨.hbm, 92, rfl⟩
abbrev main_v61 : Ref sig .tc := ⟨.hbm, 93, rfl⟩
abbrev main_v62 : Ref sig .tc := ⟨.hbm, 94, rfl⟩
abbrev main_c_11 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_cst_12 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_cst_13 : Ref sig .tc := ⟨.hbm, 105, rfl⟩
abbrev main_v71 : Ref sig .tc := ⟨.hbm, 106, rfl⟩
abbrev main_cst_14 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_cst_15 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_cst_16 : Ref sig .tc := ⟨.hbm, 131, rfl⟩
abbrev main_v94 : Ref sig .tc := ⟨.hbm, 132, rfl⟩
abbrev main_v95 : Ref sig .tc := ⟨.hbm, 133, rfl⟩
abbrev main_cst_17 : Ref sig .tc := ⟨.hbm, 134, rfl⟩
abbrev main_v96 : Ref sig .tc := ⟨.hbm, 135, rfl⟩
abbrev main_v97 : Ref sig .tc := ⟨.hbm, 136, rfl⟩
abbrev main_c_18 : Ref sig .tc := ⟨.hbm, 137, rfl⟩
abbrev main_v98 : Ref sig .tc := ⟨.hbm, 138, rfl⟩
abbrev main_v99 : Ref sig .tc := ⟨.hbm, 139, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  slices_S50000x64_S50000x8_0_0 : S50000x64.Slices ![0, 0] S50000x8
  bcast_S_S50000x8 : S_.BroadcastsInDim S50000x8 (![] : Fin 0 → Fin S50000x8.rank)
  bcast_S_S1 : S_.BroadcastsInDim S1 (![] : Fin 0 → Fin S1.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []
  scatter_S50000x64_S1_S50000x8_01_n_1_0_wf : ScatterDims.WF S50000x64 S1 S50000x8 [0, 1] [] [1] 0

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def scatter_S50000x64_S1_S50000x8_01_n_1_0 : ScatterDims S50000x64 S1 S50000x8 where
  updateWindowDims := [0, 1]
  insertedWindowDims := []
  scatterDimsToOperandDims := [1]
  indexVectorDim := 0
  wf := scatter_S50000x64_S1_S50000x8_01_n_1_0_wf

class Facts : Prop extends Facts₀ where

variable [Facts]
-- ==== Proof.KernelRun.lean ====
/-
  The kernel's run with its result named.

  From any launch memory with zero counters, every weakly fair execution of the program on the TensorCores ends, with no
  fault, in a state where the result buffer holds what the third region's write-backs leave (the last boundary's contents
  of the fold through the program, read at the result buffer) and every argument array is as launched.
-/
import proofs.«176743_j2044404433055_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the whole program: it terminates without fault from any memory with zero counters; at the end the result
    buffer holds the last boundary's contents and the fifteen argument arrays are as launched. -/
theorem run : θ_run defs (onTc (τ := τ) (main (F := F))) ⟨m, fun _ => 0, ρ⟩ (fun r => ∀ c : Dev nD,
      r.2.mem ((c.tc : Thread nD τ).loc main_v68) = W6 m ρ c (Proc.devRef .tc main_v68)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v68 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c)⟩)

end Cert.KernelIdeal.Named

end
-- ==== Proof.LibPlainMatmul.lean ====
/-
  A matrix product of an M × K by a K × N matrix into a zero accumulator, read at one entry on the extended
  reals: entry (i, j) is Σ_k lhs (i, k) · rhs (k, j). No rounding and no order of accumulation is left in it.
-/
import Idealize.ShloMosaic.PureOps.Ideal.Laws
import Idealize.ShloMosaic.Lib.ValueIdx

noncomputable section

namespace Cert.PlainMatmul

open Idealize.ShloMosaic Idealize.ShloMosaic.ValueIdx

/-- Entry (i, j) of the product of `lhs` (M × K) and `rhs` (K × N) accumulated into zeros. -/
theorem matmul_zero_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

end Cert.PlainMatmul

end
-- ==== Proof.LibHostReads.lean ====
/-
  Three host-side readings at an entry, over any sizes, on the extended reals.

  * A plain matrix product on the host (an M × K by a K × N `dot_general`, no batch axes): entry (i, j) is
    Σ_k lhs (i, k) · rhs (k, j).
  * One matrix picked out of a tensor [G, O, K, N] by slicing the first axis at g, dropping it, slicing the next at o
    and dropping it too: entry (k, n) of the result is the tensor at (g, o, k, n).
  * One row picked out of a table [G, N] at g, flattened, and broadcast down M rows: entry (i, n) of the result is
    the table at (g, n).
-/
import Idealize.ShloMosaic.PureOps.Ideal.Laws
import Idealize.ShloMosaic.Lib.Pipeline.Value
import Idealize.ShloMosaic.Lib.ValueIdx

noncomputable section

open scoped BigOperators

namespace Cert.LibHostReads

open Idealize.ShloMosaic Idealize.ShloMosaic.ValueIdx

/-- Entry (i, j) of the host's plain product of `lhs` (M × K) and `rhs` (K × N). -/
theorem dotGeneral_plain_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    Host.dotGeneral (F := Ideal) (DotDims.plain M K N) prec lhs rhs (ix2 i j) = ∑ k : Fin K, lhs (ix2 i k) * rhs (ix2 k j) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

/-- One matrix of a [G, O, K, N] tensor, picked by two slice-and-drop steps, read at (k, n). -/
theorem select_matrix_apply {α : Type} {G O K N : Nat} (W : (⟨4, ![G, O, K, N]⟩ : Shape).Idx → α) (g : Fin G) (o : Fin O)
    (h1 : (⟨4, ![G, O, K, N]⟩ : Shape).Slices ![g.val, 0, 0, 0] ⟨4, ![1, O, K, N]⟩)
    (h2 : (⟨4, ![1, O, K, N]⟩ : Shape).ShapeCasts ⟨3, ![O, K, N]⟩)
    (h3 : (⟨3, ![O, K, N]⟩ : Shape).Slices ![o.val, 0, 0] ⟨3, ![1, K, N]⟩)
    (h4 : (⟨3, ![1, K, N]⟩ : Shape).ShapeCasts ⟨2, ![K, N]⟩) (k : Fin K) (n : Fin N) :
    shapeCast ⟨2, ![K, N]⟩ (extractStridedSlice ⟨3, ![1, K, N]⟩ ![o.val, 0, 0]
      (shapeCast ⟨3, ![O, K, N]⟩ (extractStridedSlice ⟨4, ![1, O, K, N]⟩ ![g.val, 0, 0, 0] W h1) h2) h3) h4 (ix2 k n)
      = W (ix4 g o k n) := by
  refine (shapeCast_apply _ h4 (ix2 k n) (ix3 (0 : Fin 1) k n) ?_).trans ?_
  · rewrite [Shape.rowMajor_val_three, Shape.rowMajor_val_two]
    show ((0 : Fin 1).val * K + k.val) * N + n.val = k.val * N + n.val
    simp
  refine (extractStridedSlice_apply ![o.val, 0, 0] _ h3 (ix3 (0 : Fin 1) k n) (ix3 o k n) ?_).trans ?_
  · intro a
    match a with
    | ⟨0, _⟩ => show o.val = o.val + (0 : Fin 1).val; simp
    | ⟨1, _⟩ => show k.val = 0 + k.val; omega
    | ⟨2, _⟩ => show n.val = 0 + n.val; omega
  refine (shapeCast_apply _ h2 (ix3 o k n) (ix4 (0 : Fin 1) o k n) ?_).trans ?_
  · rewrite [Shape.rowMajor_val_four, Shape.rowMajor_val_three]
    show (((0 : Fin 1).val * O + o.val) * K + k.val) * N + n.val = (o.val * K + k.val) * N + n.val
    simp
  refine extractStridedSlice_apply ![g.val, 0, 0, 0] W h1 (ix4 (0 : Fin 1) o k n) (ix4 g o k n) ?_
  intro a
  match a with
  | ⟨0, _⟩ => show g.val = g.val + (0 : Fin 1).val; simp
  | ⟨1, _⟩ => show o.val = 0 + o.val; omega
  | ⟨2, _⟩ => show k.val = 0 + k.val; omega
  | ⟨3, _⟩ => show n.val = 0 + n.val; omega

/-- One row of a [G, N] table picked at g, flattened and broadcast down M rows, read at (i, n). -/
theorem select_row_apply {α : Type} {G N M : Nat} (hN : N ≠ 1) (B : (⟨2, ![G, N]⟩ : Shape).Idx → α) (g : Fin G)
    (h1 : (⟨2, ![G, N]⟩ : Shape).Slices ![g.val, 0] ⟨2, ![1, N]⟩)
    (h2 : (⟨2, ![1, N]⟩ : Shape).ShapeCasts ⟨1, ![N]⟩)
    (h3 : (⟨1, ![N]⟩ : Shape).BroadcastsInDim ⟨2, ![1, N]⟩ ![1])
    (h4 : (⟨2, ![1, N]⟩ : Shape).BroadcastsInDim ⟨2, ![M, N]⟩ ![0, 1]) (i : Fin M) (n : Fin N) :
    broadcastInDim ⟨2, ![M, N]⟩ ![0, 1] h4 (broadcastInDim ⟨2, ![1, N]⟩ ![1] h3
      (shapeCast ⟨1, ![N]⟩ (extractStridedSlice ⟨2, ![1, N]⟩ ![g.val, 0] B h1) h2)) (ix2 i n) = B (ix2 g n) := by
  refine (broadcastInDim_apply _ h4 _ (ix2 i n) (ix2 (0 : Fin 1) n) ?_).trans ?_
  · intro a
    match a with
    | ⟨0, _⟩ => show (0 : Fin 1).val = if (1 : Nat) = 1 then 0 else i.val; rw [if_pos rfl]; rfl
    | ⟨1, _⟩ => show n.val = if N = 1 then 0 else n.val; rw [if_neg hN]
  refine (broadcastInDim_apply _ h3 _ (ix2 (0 : Fin 1) n) (ix1 n) ?_).trans ?_
  · intro a
    match a with
    | ⟨0, _⟩ => show n.val = if N = 1 then 0 else n.val; rw [if_neg hN]
  refine (shapeCast_apply _ h2 (ix1 n) (ix2 (0 : Fin 1) n) ?_).trans ?_
  · rewrite [Shape.rowMajor_val_two, Shape.rowMajor_val_one]
    show (0 : Fin 1).val * N + n.val = n.val
    simp
  refine extractStridedSlice_apply ![g.val, 0] B h1 (ix2 (0 : Fin 1) n) (ix2 g n) ?_
  intro a
  match a with
  | ⟨0, _⟩ => show g.val = g.val + (0 : Fin 1).val; simp
  | ⟨1, _⟩ => show n.val = 0 + n.val; omega

end Cert.LibHostReads

end
-- ==== Proof.LibHostLayout.lean ====
/-
  Two host re-layings read at one entry, over any sizes and any element type.

  * A matrix transposed: the result at (i, j) is the matrix at (j, i).
  * A vector of N entries laid as a row [1, N] and then down M rows, by two `broadcast_in_dim`s: the result at (r, c)
    is entry c.
  * A rank-zero value broadcast to a matrix: every entry is the value.
-/
import Idealize.ShloMosaic.Lib.Pipeline.Value
import Idealize.ShloMosaic.Lib.ValueIdx

noncomputable section

namespace Cert.HostLayout

open Idealize.ShloMosaic Idealize.ShloMosaic.ValueIdx

/-- A transposed matrix at (i, j) is the matrix at (j, i). -/
theorem transpose2_apply {α : Type} {a b : ℕ} (x : (⟨2, ![a, b]⟩ : Shape).Idx → α)
    (h : (⟨2, ![a, b]⟩ : Shape).Transposes [1, 0] ⟨2, ![b, a]⟩) (i : Fin b) (j : Fin a) :
    transpose ⟨2, ![b, a]⟩ [1, 0] x h (ix2 i j) = x (ix2 j i) := by
  refine transpose_apply [1, 0] x h (ix2 i j) (ix2 j i) fun q => ?_
  match q with
  | ⟨0, _⟩ => rfl
  | ⟨1, _⟩ => rfl

/-- A vector laid as a row and then down M rows reads, at (r, c), entry c. -/
theorem biasRow_apply {α : Type} {M N : ℕ} (v : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (c : Fin N) :
    broadcastInDim ⟨2, ![M, N]⟩ ![0, 1] h2 (broadcastInDim ⟨2, ![1, N]⟩ ![1] h1 v) (ix2 r c) = v (ix1 c) := by
  refine (broadcastInDim_apply _ h2 _ (ix2 r c) (ix2 (0 : Fin 1) c) fun a => ?_).trans
    (broadcastInDim_apply _ h1 v (ix2 (0 : Fin 1) c) (ix1 c) fun a => ?_)
  · match a with
    | ⟨0, _⟩ => show (0 : Fin 1).val = if (1 : Nat) = 1 then 0 else r.val; rw [if_pos rfl]; rfl
    | ⟨1, _⟩ =>
      show c.val = if N = 1 then 0 else c.val
      split
      · have := c.isLt; omega
      · rfl
  · match a with
    | ⟨0, _⟩ =>
      show c.val = if N = 1 then 0 else c.val
      split
      · have := c.isLt; omega
      · rfl

/-- A rank-zero value broadcast to any shape reads the value everywhere. -/
theorem scalar_apply {α : Type} {t : Shape} (u : (⟨0, ![]⟩ : Shape).Idx → α)
    (h : (⟨0, ![]⟩ : Shape).BroadcastsInDim t ![]) (i : t.Idx) :
    broadcastInDim t ![] h u i = u (fun a => a.elim0) :=
  broadcastInDim_apply ![] h u i (fun a => a.elim0) (fun a => a.elim0)

end Cert.HostLayout

end
-- ==== Proof.LibBlockRows.lean ====
/-
  Picking rows out of a matrix, and the layers of a dense graph network read on the picked rows.

  A map ρ from the row numbers of a small matrix to the row numbers of a tall one lays rows ρ 0, ρ 1, … of the
  tall matrix as a matrix of its own (`rowsOf`). Every layer below acts on each row separately, so computing the
  layer on the picked rows gives the picked rows of the layer computed on the whole matrix:

  * a product with a fixed right factor, Σ_k A (r, k) · G (k, c): the matrix unit's product into a zero
    accumulator on the picked rows against the host's plain product on the whole;
  * a bias, one vector of N numbers added to every row: the vector laid as a row and broadcast down the picked
    rows against two host broadcasts down all rows;
  * the entry-by-entry operations (sum, product, maximum, exponential) and a constant splat.

  Everything is on the extended reals, where a change of float format is the identity, so an operand may first
  have been converted to a narrower format.
-/
import Idealize.ShloMosaic.PureOps.Ideal.Laws
import Idealize.ShloMosaic.Lib.Pipeline.Value
import Idealize.ShloMosaic.Lib.ValueIdx
import Idealize.ShloMosaic.Lib.ValueLayout
import proofs.«176743_j2044404433055_1_alg».proof.Proof.LibPlainMatmul
import proofs.«176743_j2044404433055_1_alg».proof.Proof.LibHostReads
import proofs.«176743_j2044404433055_1_alg».proof.Proof.LibHostLayout

noncomputable section

open scoped BigOperators

namespace Cert.BlockRows

open Idealize.ShloMosaic Idealize.ShloMosaic.ValueIdx

variable {TM M K N : Nat}

/-- Rows ρ 0, ρ 1, … of an M-row matrix, laid as a TM-row matrix. -/
def rowsOf {α : Type} (ρ : Fin TM → Fin M) (X : (⟨2, ![M, K]⟩ : Shape).Idx → α) : (⟨2, ![TM, K]⟩ : Shape).Idx → α :=
  fun j => X (ix2 (ρ (j 0)) (j 1))

/-- Entry (p, k) of the picked rows is entry (ρ p, k) of the matrix. -/
theorem rowsOf_apply {α : Type} (ρ : Fin TM → Fin M) (X : (⟨2, ![M, K]⟩ : Shape).Idx → α) (p : Fin TM) (k : Fin K) :
    rowsOf ρ X (ix2 p k) = X (ix2 (ρ p) k) := rfl

/-- Picking every row in place changes nothing. -/
theorem rowsOf_id {α : Type} (X : (⟨2, ![M, K]⟩ : Shape).Idx → α) : rowsOf (fun p : Fin M => p) X = X := by
  funext j
  exact congrArg X (eq_ix2 j).symm

/-- Row p of block t when M rows are cut into n blocks of TM rows each: row TM · t + p. -/
def blockRow (TM n M : Nat) (h : TM * n ≤ M) (t : Fin n) : Fin TM → Fin M := fun p =>
  ⟨TM * t.val + p.val, by
    have ht := t.isLt
    have hp := p.isLt
    calc TM * t.val + p.val < TM * t.val + TM := by omega
      _ = TM * (t.val + 1) := by rw [Nat.mul_succ]
      _ ≤ TM * n := Nat.mul_le_mul_left _ (by omega)
      _ ≤ M := h⟩

/-- Its row number. -/
theorem blockRow_val (TM n M : Nat) (h : TM * n ≤ M) (t : Fin n) (p : Fin TM) :
    (blockRow TM n M h t p).val = TM * t.val + p.val := rfl

/-- A sum of picked rows is the picked rows of the sum. -/
theorem addf_rows {φ : FTy} (ρ : Fin TM → Fin M) (X Y : FVec Ideal ⟨2, ![M, N]⟩ φ) :
    addf (rowsOf ρ X) (rowsOf ρ Y) = rowsOf ρ (addf X Y) := rfl

/-- A product, entry by entry, of picked rows is the picked rows of the product. -/
theorem mulf_rows {φ : FTy} (ρ : Fin TM → Fin M) (X Y : FVec Ideal ⟨2, ![M, N]⟩ φ) :
    mulf (rowsOf ρ X) (rowsOf ρ Y) = rowsOf ρ (mulf X Y) := rfl

/-- The exponential of picked rows is the picked rows of the host's exponential: one function on the extended reals. -/
theorem exp_rows {φ : FTy} (ρ : Fin TM → Fin M) (X : FVec Ideal ⟨2, ![M, N]⟩ φ) :
    exp (rowsOf ρ X) = rowsOf ρ (Host.exp X) := rfl

/-- The host's plain product of an M × K by a K × N matrix. -/
def propagate (A : FVec Ideal ⟨2, ![M, K]⟩ .f32) (G : FVec Ideal ⟨2, ![K, N]⟩ .f32) : FVec Ideal ⟨2, ![M, N]⟩ .f32 :=
  Host.dotGeneral (F := Ideal) (DotDims.plain M K N) none A G

/-- The host's dense layer: the plain product X · W plus the one row B added to every row. -/
def dense (h2 : (⟨2, ![1, N]⟩ : Shape).BroadcastsInDim ⟨2, ![M, N]⟩ ![0, 1])
    (X : FVec Ideal ⟨2, ![M, K]⟩ .f32) (W : FVec Ideal ⟨2, ![K, N]⟩ .f32) (B : FVec Ideal ⟨2, ![1, N]⟩ .f32) :
    FVec Ideal ⟨2, ![M, N]⟩ .f32 :=
  addf (Host.dotGeneral (F := Ideal) (DotDims.plain M K N) none X W) (broadcastInDim ⟨2, ![M, N]⟩ ![0, 1] h2 B)

/-- The host's maximum with zero, the zero a rank-zero constant broadcast to the matrix. -/
def relu (h0 : (⟨0, ![]⟩ : Shape).BroadcastsInDim ⟨2, ![M, N]⟩ ![]) (Y : FVec Ideal ⟨2, ![M, N]⟩ .f32) :
    FVec Ideal ⟨2, ![M, N]⟩ .f32 :=
  maximumf Y (broadcastInDim ⟨2, ![M, N]⟩ ![] h0 (constant (F := Ideal) ⟨0, ![]⟩ .f32 0x00000000#32))

/-- The host's product with a constant, the constant of word `w` broadcast from rank zero. -/
def scaled (w : BitVec 32) (h0 : (⟨0, ![]⟩ : Shape).BroadcastsInDim ⟨2, ![M, N]⟩ ![]) (Y : FVec Ideal ⟨2, ![M, N]⟩ .f32) :
    FVec Ideal ⟨2, ![M, N]⟩ .f32 :=
  mulf (broadcastInDim ⟨2, ![M, N]⟩ ![] h0 (constant (F := Ideal) ⟨0, ![]⟩ .f32 w)) Y

/-- The product with a fixed right factor, row by row: when row p of `a` is row ρ p of `A` and `g` is `G`, the
    matrix unit's product of `a` and `g` into zeros is the picked rows of the host's product of `A` and `G`. -/
theorem matmul_rows (ρ : Fin TM → Fin M) {φ₁ φ₂ : FTy} (prec prec' : Option ContractPrecision)
    (a : FVec Ideal ⟨2, ![TM, K]⟩ φ₁) (g : FVec Ideal ⟨2, ![K, N]⟩ φ₂)
    (A : FVec Ideal ⟨2, ![M, K]⟩ .f32) (G : FVec Ideal ⟨2, ![K, N]⟩ .f32)
    (ha : ∀ (p : Fin TM) (k : Fin K), (a (ix2 p k) : EReal) = A (ix2 (ρ p) k))
    (hg : ∀ (k : Fin K) (n : Fin N), (g (ix2 k n) : EReal) = G (ix2 k n)) :
    matmul (DotDims.plain TM K N) prec a g (constant ⟨2, ![TM, N]⟩ .f32 0x00000000#32)
      = rowsOf ρ (Host.dotGeneral (F := Ideal) (DotDims.plain M K N) prec' A G) := by
  funext j
  obtain ⟨p, c, rfl⟩ : ∃ (p : Fin TM) (c : Fin N), j = ix2 p c := ⟨j 0, j 1, eq_ix2 j⟩
  rw [rowsOf_apply, Cert.LibHostReads.dotGeneral_plain_apply]
  refine (Cert.PlainMatmul.matmul_zero_apply TM K N prec a g p c).trans ?_
  exact Finset.sum_congr rfl fun k _ => congrArg₂ (· * ·) (ha p k) (hg k c)

/-- The propagation step on picked rows: the matrix unit's product, into zeros, of the picked rows of A and the
    whole of G — both first converted to a narrower float format, which changes nothing on the extended reals — is
    the picked rows of the host's product A · G. -/
theorem propagate_rows (ρ : Fin TM → Fin M) {ψ : FTy} (hψ : ψ.bits < FTy.f32.bits)
    (hs : (⟨2, ![K, N]⟩ : Shape).ShapeCasts ⟨2, ![K, N]⟩)
    (A : FVec Ideal ⟨2, ![M, K]⟩ .f32) (G : FVec Ideal ⟨2, ![K, N]⟩ .f32) :
    matmul (DotDims.plain TM K N) none (truncf ψ (rowsOf ρ A) hψ) (truncf ψ (shapeCast ⟨2, ![K, N]⟩ G hs) hψ)
        (constant ⟨2, ![TM, N]⟩ .f32 0x00000000#32)
      = rowsOf ρ (propagate A G) := by
  rw [shapeCast_self]
  exact matmul_rows ρ none none _ _ A G (fun _ _ => rfl) (fun _ _ => rfl)

/-- A dense layer on picked rows: the matrix unit's product of the picked rows of X and the whole of W into zeros,
    plus the row B broadcast down the picked rows, is the picked rows of the host's layer on X. -/
theorem dense_rows (ρ : Fin TM → Fin M)
    (hsw : (⟨2, ![K, N]⟩ : Shape).ShapeCasts ⟨2, ![K, N]⟩) (hs : (⟨2, ![1, N]⟩ : Shape).ShapeCasts ⟨2, ![1, N]⟩)
    (hb : (⟨2, ![1, N]⟩ : Shape).Broadcasts ⟨2, ![TM, N]⟩)
    (h2 : (⟨2, ![1, N]⟩ : Shape).BroadcastsInDim ⟨2, ![M, N]⟩ ![0, 1])
    (X : FVec Ideal ⟨2, ![M, K]⟩ .f32) (W : FVec Ideal ⟨2, ![K, N]⟩ .f32) (B : FVec Ideal ⟨2, ![1, N]⟩ .f32) :
    addf (matmul (DotDims.plain TM K N) none (rowsOf ρ X) (shapeCast ⟨2, ![K, N]⟩ W hsw)
          (constant ⟨2, ![TM, N]⟩ .f32 0x00000000#32))
        (broadcastTo ⟨2, ![TM, N]⟩ (shapeCast ⟨2, ![1, N]⟩ B hs) hb)
      = rowsOf ρ (dense h2 X W B) := by
  rw [shapeCast_self, shapeCast_self, matmul_rows ρ none none (rowsOf ρ X) W X W (fun _ _ => rfl) (fun _ _ => rfl)]
  unfold dense
  rw [← addf_rows]
  refine congrArg (addf (rowsOf ρ (Host.dotGeneral (F := Ideal) (DotDims.plain M K N) none X W))) ?_
  funext j
  obtain ⟨p, c, rfl⟩ : ∃ (p : Fin TM) (c : Fin N), j = ix2 p c := ⟨j 0, j 1, eq_ix2 j⟩
  rw [broadcastTo_1b_ab_apply, rowsOf_apply]
  refine (broadcastInDim_apply _ h2 B (ix2 (ρ p) c) (ix2 (0 : Fin 1) c) fun a => ?_).symm
  match a with
  | ⟨0, _⟩ => show (0 : Fin 1).val = if (1 : Nat) = 1 then 0 else (ρ p).val; rw [if_pos rfl]; rfl
  | ⟨1, _⟩ =>
    show c.val = if N = 1 then 0 else c.val
    split
    · have := c.isLt; omega
    · rfl

/-- A vector of N numbers reshaped to one row is the same vector broadcast into a row along its one axis. -/
theorem reshape_row {α : Type} (v : (⟨1, ![N]⟩ : Shape).Idx → α) (hs : (⟨1, ![N]⟩ : Shape).ShapeCasts ⟨2, ![1, N]⟩)
    (h1 : (⟨1, ![N]⟩ : Shape).BroadcastsInDim ⟨2, ![1, N]⟩ ![1]) :
    shapeCast ⟨2, ![1, N]⟩ v hs = broadcastInDim ⟨2, ![1, N]⟩ ![1] h1 v := by
  funext i
  obtain ⟨z, c, rfl⟩ : ∃ (z : Fin 1) (c : Fin N), i = ix2 z c := ⟨i 0, i 1, eq_ix2 i⟩
  have hz : z.val = 0 := by have := z.isLt; omega
  refine (shapeCast_apply v hs (ix2 z c) (ix1 c) ?_).trans (broadcastInDim_apply ![1] h1 v (ix2 z c) (ix1 c) fun a => ?_).symm
  · rewrite [Shape.rowMajor_val_two, Shape.rowMajor_val_one]
    show c.val = z.val * N + c.val
    rw [hz]; simp
  · match a with
    | ⟨0, _⟩ =>
      show c.val = if N = 1 then 0 else c.val
      split
      · have := c.isLt; omega
      · rfl

/-- A constant splat over TM rows is the picked rows of the same constant broadcast from rank zero over M rows. -/
theorem splat_rows (ρ : Fin TM → Fin M) (w : BitVec 32) (h : (⟨0, ![]⟩ : Shape).BroadcastsInDim ⟨2, ![M, N]⟩ ![]) :
    (broadcast ⟨2, ![TM, N]⟩ (Scalar.ofBits (F := Ideal) .f32 w) : FVec Ideal ⟨2, ![TM, N]⟩ .f32)
      = rowsOf ρ (broadcastInDim ⟨2, ![M, N]⟩ ![] h (constant (F := Ideal) ⟨0, ![]⟩ .f32 w)) := by
  funext j
  exact (Cert.HostLayout.scalar_apply (constant (F := Ideal) ⟨0, ![]⟩ .f32 w) h (ix2 (ρ (j 0)) (j 1))).symm

/-- The maximum with a splat zero of picked rows is the picked rows of the host's maximum with zero. -/
theorem relu_rows (ρ : Fin TM → Fin M) (h0 : (⟨0, ![]⟩ : Shape).BroadcastsInDim ⟨2, ![M, N]⟩ ![])
    (Y : FVec Ideal ⟨2, ![M, N]⟩ .f32) :
    maximumf (rowsOf ρ Y) (broadcast ⟨2, ![TM, N]⟩ (Scalar.ofBits (F := Ideal) .f32 0x00000000#32)) = rowsOf ρ (relu h0 Y) := by
  rw [splat_rows ρ 0x00000000#32 h0]; rfl

/-- The product of a splat constant with picked rows is the picked rows of the host's product with the constant. -/
theorem scaled_rows (ρ : Fin TM → Fin M) (w : BitVec 32) (h0 : (⟨0, ![]⟩ : Shape).BroadcastsInDim ⟨2, ![M, N]⟩ ![])
    (Y : FVec Ideal ⟨2, ![M, N]⟩ .f32) :
    mulf (broadcast ⟨2, ![TM, N]⟩ (Scalar.ofBits (F := Ideal) .f32 w)) (rowsOf ρ Y) = rowsOf ρ (scaled w h0 Y) := by
  rw [splat_rows ρ w h0]; rfl

end Cert.BlockRows

end
-- ==== Proof.Spec.lean ====
/-
  The network both programs compute, as whole-array functions on the extended reals.

  A node table X (50000 rows of 128 numbers) and an edge list E (two rows of 800000 node numbers: sources, then
  destinations). The neighbourhood mean of X gathers row src(e) of X for every edge e, adds it into row dst(e) of a
  zero table, and divides row r by max(deg r, 1), deg r the number of edges with destination r (`mean`). A layer
  combines the mean, the table itself and the first embedding Z through fixed weight tables:

    layer1  = max(mean·Wn + X·Wr + b, 0)
    layer2  = max(mean·Wn + H·Wr + b, 0) + (Z·Wres + bres)
    layer3  = gate((mean·Wn + H·Wr + b) + (Z·Wres + bres)),   gate = the logistic function on the first 8 columns

  and `net` chains the three, each layer's mean taken of the previous layer's table.
-/
import proofs.«176743_j2044404433055_1_alg».proof.Proof.Gen.KernelIdeal
import proofs.«176743_j2044404433055_1_alg».proof.Proof.LibBlockRows
import Idealize.ShloMosaic.PureOps.Ideal

noncomputable section

namespace Cert.Sage

open Idealize.ShloMosaic Idealize.ShloMosaic.ValueIdx Cert.KernelIdeal Cert.KernelIdeal.Gen Cert.BlockRows

/-- A table of one row of 128 (or 64) numbers per node, a weight table, a bias row, the edge list, one row of it. -/
abbrev Tab := FVec Ideal S50000x128 .f32
abbrev Tab64 := FVec Ideal S50000x64 .f32
abbrev Wt := FVec Ideal S128x128 .f32
abbrev Wt64 := FVec Ideal S128x64 .f32
abbrev Row := FVec Ideal S1x128 .f32
abbrev Row64 := FVec Ideal S1x64 .f32
abbrev Edges := (⟨S2x800000, .i32⟩ : BufTy).Contents (Elt Ideal)
abbrev Ends := (⟨S800000, .i32⟩ : BufTy).Contents (Elt Ideal)

theorem h0 : (⟨0, ![]⟩ : Shape).BroadcastsInDim ⟨2, ![50000, 128]⟩ ![] := by decide
theorem hb : (⟨2, ![1, 128]⟩ : Shape).BroadcastsInDim ⟨2, ![50000, 128]⟩ ![0, 1] := by decide
theorem hb64 : (⟨2, ![1, 64]⟩ : Shape).BroadcastsInDim ⟨2, ![50000, 64]⟩ ![0, 1] := by decide
theorem hrow : (⟨1, ![128]⟩ : Shape).BroadcastsInDim ⟨2, ![1, 128]⟩ ![1] := by decide
theorem hrow64 : (⟨1, ![64]⟩ : Shape).BroadcastsInDim ⟨2, ![1, 64]⟩ ![1] := by decide

/-- The edges' sources and destinations: rows 0 and 1 of the edge list. -/
def srcOf (E : Edges) : Ends :=
  shapeCast S800000 (extractStridedSlice S1x800000 ![0, 0] E slices_S2x800000_S1x800000_0_0) shapeCasts_S1x800000_S800000
def dstOf (E : Edges) : Ends :=
  shapeCast S800000 (extractStridedSlice S1x800000 ![1, 0] E slices_S2x800000_S1x800000_1_0) shapeCasts_S1x800000_S800000

/-- The neighbourhood mean of X over edges with sources s and destinations d: rows of X gathered by s (a negative
    number counted from the end), added into rows d of a zero table, each row divided by max(its count of edges, 1). -/
def meanSD (X : Tab) (s d : Ends) : Tab :=
  Host.divf
    (Host.scatterAdd scatter_S50000x128_S800000x1_S800000x128_1_0_0_1
      (broadcastInDim S50000x128 ![] bcast_S_S50000x128 (constant (F := Ideal) S_ .f32 0x00000000#32))
      (broadcastInDim S800000x1 ![0] bcast_S800000_S800000x1_0 d)
      (Host.gather gather_S50000x128_S800000x1_S800000x128_1_0_n_n_0_1_1128 X
        (broadcastInDim S800000x1 ![0] bcast_S800000_S800000x1_0
          (select (cmpi .slt s (broadcastInDim S800000 ![] bcast_S_S800000 (constantI S_ 32 0#32)))
            (addi s (broadcastInDim S800000 ![] bcast_S_S800000 (constantI S_ 32 50000#32))) s))))
    (broadcastInDim S50000x128 ![0, 1] bcast_S50000x1_S50000x128_0_1
      (broadcastInDim S50000x1 ![0] bcast_S50000_S50000x1_0
        (maximumf
          (Host.scatterAdd scatter_S50000_S800000x1_S800000_n_0_0_1
            (broadcastInDim S50000 ![] bcast_S_S50000 (constant (F := Ideal) S_ .f32 0x00000000#32))
            (broadcastInDim S800000x1 ![0] bcast_S800000_S800000x1_0 d)
            (broadcastInDim S800000 ![] bcast_S_S800000 (constant (F := Ideal) S_ .f32 0x3F800000#32)))
          (broadcastInDim S50000 ![] bcast_S_S50000 (constant (F := Ideal) S_ .f32 0x3F800000#32)))))

/-- The neighbourhood mean over the edge list. -/
def mean (X : Tab) (E : Edges) : Tab := meanSD X (srcOf E) (dstOf E)

/-- A bias vector laid as one row. -/
def rowOf (b : FVec Ideal S128 .f32) : Row := broadcastInDim ⟨2, ![1, 128]⟩ ![1] hrow b
def rowOf64 (b : FVec Ideal S64 .f32) : Row64 := broadcastInDim ⟨2, ![1, 64]⟩ ![1] hrow64 b

/-- mean·Wn + X·Wr + b, the row b added to every row. -/
def sage (Mn X : Tab) (Wn Wr : Wt) (B : Row) : Tab :=
  addf (addf (propagate Mn Wn) (propagate X Wr)) (broadcastInDim ⟨2, ![50000, 128]⟩ ![0, 1] hb B)
def sage64 (Mn X : Tab) (Wn Wr : Wt64) (B : Row64) : Tab64 :=
  addf (addf (propagate Mn Wn) (propagate X Wr)) (broadcastInDim ⟨2, ![50000, 64]⟩ ![0, 1] hb64 B)

/-- The residual projection Z·Wres + bres. -/
def resid (Z : Tab) (W : Wt) (B : Row) : Tab := addf (propagate Z W) (broadcastInDim ⟨2, ![50000, 128]⟩ ![0, 1] hb B)
def resid64 (Z : Tab) (W : Wt64) (B : Row64) : Tab64 := addf (propagate Z W) (broadcastInDim ⟨2, ![50000, 64]⟩ ![0, 1] hb64 B)

/-- The logistic function on the columns below 8, the identity on the others. -/
def gate {M N : Nat} (Y : (⟨2, ![M, N]⟩ : Shape).Idx → EReal) : (⟨2, ![M, N]⟩ : Shape).Idx → EReal :=
  fun i => if (i 1).val < 8 then Ideal.logistic (Y i) else Y i

def layer1 (Mn X : Tab) (Wn Wr : Wt) (B : Row) : Tab := relu h0 (sage Mn X Wn Wr B)
def layer2 (H Mn Z : Tab) (Wn Wr : Wt) (B : Row) (Wres : Wt) (Bres : Row) : Tab :=
  addf (relu h0 (sage Mn H Wn Wr B)) (resid Z Wres Bres)
def pre3 (H Mn Z : Tab) (Wn Wr : Wt64) (B : Row64) (Wres : Wt64) (Bres : Row64) : Tab64 :=
  addf (sage64 Mn H Wn Wr B) (resid64 Z Wres Bres)
def layer3 (H Mn Z : Tab) (Wn Wr : Wt64) (B : Row64) (Wres : Wt64) (Bres : Row64) : Tab64 :=
  gate (pre3 H Mn Z Wn Wr B Wres Bres)

/-- The first, second and third tables of the network from the embedding Z, the edges and the parameters. -/
def h1 (Z : Tab) (E : Edges) (W1n W1r : Wt) (b1 : Row) : Tab := layer1 (mean Z E) Z W1n W1r b1
def h2 (Z : Tab) (E : Edges) (W1n W1r : Wt) (b1 : Row) (W2n W2r : Wt) (b2 : Row) (Wres1 : Wt) (bres1 : Row) : Tab :=
  layer2 (h1 Z E W1n W1r b1) (mean (h1 Z E W1n W1r b1) E) Z W2n W2r b2 Wres1 bres1
def net (Z : Tab) (E : Edges) (W1n W1r : Wt) (b1 : Row) (W2n W2r : Wt) (b2 : Row) (Wres1 : Wt) (bres1 : Row)
    (Wfn Wfr : Wt64) (bf : Row64) (Wres2 : Wt64) (bres2 : Row64) : Tab64 :=
  layer3 (h2 Z E W1n W1r b1 W2n W2r b2 Wres1 bres1) (mean (h2 Z E W1n W1r b1 W2n W2r b2 Wres1 bres1) E) Z Wfn Wfr bf Wres2 bres2

end Cert.Sage

end
-- ==== Proof.Entry.lean ====
/-
  What each of the three regions is entered with, and what the program's result buffer ends at.

  The buffer contents at the segment boundaries are a fold from the launch memory: a stretch of host operations rewrites
  the buffers it writes, a region leaves its output array at what its write-backs make of it and everything else as
  entered. Read at the buffers a region's windows are laid over, the fold gives: the neighbourhood mean of the previous
  table over the launched edge list (the mean of the launched node table for the first region), the previous region's
  output array itself, the launched parameter arrays untouched, and each bias vector laid as one row.
-/
import proofs.«176743_j2044404433055_1_alg».proof.Proof.Gen.KernelIdeal.Frame
import proofs.«176743_j2044404433055_1_alg».proof.Proof.Spec
import Idealize.ShloMosaic.Lib.StableHlo.Run

set_option maxRecDepth 16384

noncomputable section

namespace Cert.KernelIdeal.Entry

open Cert.KernelIdeal Cert.KernelIdeal.Gen Cert.Sage
open Idealize.ShloMosaic Idealize.ShloMosaic.TcCoe Idealize.ShloMosaic.Tactic
open Idealize.ShloMosaic.Pipeline (Dat Cfg Window cellOf)

variable (m : (ℓ : Loc nD τ sig) → Buf (Elt Ideal) ℓ) (ρ : Dev nD → PrngReg)

/-! ## What the host stretches write, and what a boundary keeps -/

/-- The references the first stretch of host operations writes, in order. -/
def wr0 : List (Ref sig .tc) :=
  [main_v0, main_v1, main_v2, main_v3, main_c, main_v4, main_v5, main_c_0, main_v6, main_v7, main_v8, main_v9, main_v10, main_cst, main_v11, main_v12, main_v13, main_cst_1, main_v14, main_cst_2, main_v15, main_v16, main_v17, main_cst_3, main_v18, main_v19, main_v20, main_v21, main_v22, main_v23]

theorem hostOps0_writes :
    (hostOps0 : List (HloOp τ sig (Elt Ideal))).Forall fun op => op.writes ⊆ (wr0.map (Proc.devRef (τ := τ) .tc)).toFinset := by
  simp only [hostOps0, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- The references the second stretch of host operations writes, in order. -/
def wr1 : List (Ref sig .tc) :=
  [main_c_4, main_v25, main_v26, main_c_5, main_v27, main_v28, main_v29, main_v30, main_v31, main_cst_6, main_v32, main_v33, main_v34, main_cst_7, main_v35, main_cst_8, main_v36, main_v37, main_v38, main_cst_9, main_v39, main_v40, main_v41, main_v42, main_v43, main_v44, main_v45]

theorem hostOps1_writes :
    (hostOps1 : List (HloOp τ sig (Elt Ideal))).Forall fun op => op.writes ⊆ (wr1.map (Proc.devRef (τ := τ) .tc)).toFinset := by
  simp only [hostOps1, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- The references the third stretch of host operations writes, in order. -/
def wr2 : List (Ref sig .tc) :=
  [main_c_10, main_v47, main_v48, main_c_11, main_v49, main_v50, main_v51, main_v52, main_v53, main_cst_12, main_v54, main_v55, main_v56, main_cst_13, main_v57, main_cst_14, main_v58, main_v59, main_v60, main_cst_15, main_v61, main_v62, main_v63, main_v64, main_v65, main_v66, main_v67]

theorem hostOps2_writes :
    (hostOps2 : List (HloOp τ sig (Elt Ideal))).Forall fun op => op.writes ⊆ (wr2.map (Proc.devRef (τ := τ) .tc)).toFinset := by
  simp only [hostOps2, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- A buffer a host stretch does not write is, after it, as before it. -/
theorem W1_keep (c : Dev nD) (b : Ref sig .tc) (hb : b ∉ wr0) :
    W1 m ρ c (Proc.devRef .tc b) = m ((c.tc : Thread nD τ).loc b) :=
  StableHlo.after_of_writes_sub _ _ hostOps0_writes hb

theorem W3_keep (c : Dev nD) (b : Ref sig .tc) (hb : b ∉ wr1) :
    W3 m ρ c (Proc.devRef .tc b) = W2 m ρ c (Proc.devRef .tc b) :=
  StableHlo.after_of_writes_sub _ _ hostOps1_writes hb

theorem W5_keep (c : Dev nD) (b : Ref sig .tc) (hb : b ∉ wr2) :
    W5 m ρ c (Proc.devRef .tc b) = W4 m ρ c (Proc.devRef .tc b) :=
  StableHlo.after_of_writes_sub _ _ hostOps2_writes hb

/-- A region leaves every buffer but its output array as entered: an input window's array by the pipeline's proof data,
    any other buffer because the region's arrays do not include it. -/
theorem W2_keep (c : Dev nD) (b : Ref sig .tc) (hb : b ≠ main_v24) :
    W2 m ρ c (Proc.devRef .tc b) = W1 m ρ c (Proc.devRef .tc b) := by
  by_cases h : ∃ w, Pipeline.arrRef spec0 w = b
  · obtain ⟨w, rfl⟩ := h
    have hin : (cfg0.win w).isOut = false := by
      revert hb; revert w; decide
    exact (W2_arr m ρ c w).trans (((dat0 (V1 m ρ) c).arrAt_in w hin _).trans (A_eq0 (V1 m ρ) c w))
  · exact W2_of_ne m ρ c b (fun w e => h ⟨w, e⟩)

theorem W4_keep (c : Dev nD) (b : Ref sig .tc) (hb : b ≠ main_v46) :
    W4 m ρ c (Proc.devRef .tc b) = W3 m ρ c (Proc.devRef .tc b) := by
  by_cases h : ∃ w, Pipeline.arrRef spec1 w = b
  · obtain ⟨w, rfl⟩ := h
    have hin : (cfg1.win w).isOut = false := by
      revert hb; revert w; decide
    exact (W4_arr m ρ c w).trans (((dat1 (V3 m ρ) c).arrAt_in w hin _).trans (A_eq1 (V3 m ρ) c w))
  · exact W4_of_ne m ρ c b (fun w e => h ⟨w, e⟩)

theorem W6_keep (c : Dev nD) (b : Ref sig .tc) (hb : b ≠ main_v68) :
    W6 m ρ c (Proc.devRef .tc b) = W5 m ρ c (Proc.devRef .tc b) := by
  by_cases h : ∃ w, Pipeline.arrRef spec2 w = b
  · obtain ⟨w, rfl⟩ := h
    have hin : (cfg2.win w).isOut = false := by
      revert hb; revert w; decide
    exact (W6_arr m ρ c w).trans (((dat2 (V5 m ρ) c).arrAt_in w hin _).trans (A_eq2 (V5 m ρ) c w))
  · exact W6_of_ne m ρ c b (fun w e => h ⟨w, e⟩)

/-- A buffer that no stretch writes and that is no region's output array holds its launch contents at every boundary. -/
theorem W2_launch (c : Dev nD) (b : Ref sig .tc) (h0 : b ∉ wr0) (h24 : b ≠ main_v24) :
    W2 m ρ c (Proc.devRef .tc b) = m ((c.tc : Thread nD τ).loc b) :=
  (W2_keep m ρ c b h24).trans (W1_keep m ρ c b h0)
theorem W3_launch (c : Dev nD) (b : Ref sig .tc) (h0 : b ∉ wr0) (h24 : b ≠ main_v24) (h1 : b ∉ wr1) :
    W3 m ρ c (Proc.devRef .tc b) = m ((c.tc : Thread nD τ).loc b) :=
  (W3_keep m ρ c b h1).trans (W2_launch m ρ c b h0 h24)
theorem W4_launch (c : Dev nD) (b : Ref sig .tc) (h0 : b ∉ wr0) (h24 : b ≠ main_v24) (h1 : b ∉ wr1) (h46 : b ≠ main_v46) :
    W4 m ρ c (Proc.devRef .tc b) = m ((c.tc : Thread nD τ).loc b) :=
  (W4_keep m ρ c b h46).trans (W3_launch m ρ c b h0 h24 h1)
theorem W5_launch (c : Dev nD) (b : Ref sig .tc) (h0 : b ∉ wr0) (h24 : b ≠ main_v24) (h1 : b ∉ wr1) (h46 : b ≠ main_v46)
    (h2 : b ∉ wr2) : W5 m ρ c (Proc.devRef .tc b) = m ((c.tc : Thread nD τ).loc b) :=
  (W5_keep m ρ c b h2).trans (W4_launch m ρ c b h0 h24 h1 h46)

/-! ## What the host stretches compute, from any contents -/

/-- The first stretch: the edge list's two rows, the neighbourhood mean of the node table, the first bias as a row. -/
theorem host0_v1 (V : Valuation τ sig (Elt Ideal)) :
    (StableHlo.after hostOps0 V (Proc.devRef .tc main_v1) : Ends) = srcOf (V (Proc.devRef .tc main_arg1)) := by
  after_results; rfl
theorem host0_v3 (V : Valuation τ sig (Elt Ideal)) :
    (StableHlo.after hostOps0 V (Proc.devRef .tc main_v3) : Ends) = dstOf (V (Proc.devRef .tc main_arg1)) := by
  after_results; rfl
theorem host0_v22 (V : Valuation τ sig (Elt Ideal)) :
    (StableHlo.after hostOps0 V (Proc.devRef .tc main_v22) : Tab) = mean (V (Proc.devRef .tc main_arg0)) (V (Proc.devRef .tc main_arg1)) := by
  after_results; rfl
theorem host0_v23 (V : Valuation τ sig (Elt Ideal)) :
    (StableHlo.after hostOps0 V (Proc.devRef .tc main_v23) : Row)
      = shapeCast S1x128 (V (Proc.devRef .tc main_arg4)) shapeCasts_S128_S1x128 := by
  after_results; rfl

/-- The second stretch: the neighbourhood mean of the first region's output over the rows the first stretch left, and
    two bias vectors as rows. -/
theorem host1_v43 (V : Valuation τ sig (Elt Ideal)) :
    (StableHlo.after hostOps1 V (Proc.devRef .tc main_v43) : Tab)
      = meanSD (V (Proc.devRef .tc main_v24)) (V (Proc.devRef .tc main_v1)) (V (Proc.devRef .tc main_v3)) := by
  after_results; rfl
theorem host1_v44 (V : Valuation τ sig (Elt Ideal)) :
    (StableHlo.after hostOps1 V (Proc.devRef .tc main_v44) : Row)
      = shapeCast S1x128 (V (Proc.devRef .tc main_arg7)) shapeCasts_S128_S1x128 := by
  after_results; rfl
theorem host1_v45 (V : Valuation τ sig (Elt Ideal)) :
    (StableHlo.after hostOps1 V (Proc.devRef .tc main_v45) : Row)
      = shapeCast S1x128 (V (Proc.devRef .tc main_arg12)) shapeCasts_S128_S1x128 := by
  after_results; rfl

/-- The third stretch: the same of the second region's output, the bias vectors of 64. -/
theorem host2_v65 (V : Valuation τ sig (Elt Ideal)) :
    (StableHlo.after hostOps2 V (Proc.devRef .tc main_v65) : Tab)
      = meanSD (V (Proc.devRef .tc main_v46)) (V (Proc.devRef .tc main_v1)) (V (Proc.devRef .tc main_v3)) := by
  after_results; rfl
theorem host2_v66 (V : Valuation τ sig (Elt Ideal)) :
    (StableHlo.after hostOps2 V (Proc.devRef .tc main_v66) : Row64)
      = shapeCast S1x64 (V (Proc.devRef .tc main_arg10)) shapeCasts_S64_S1x64 := by
  after_results; rfl
theorem host2_v67 (V : Valuation τ sig (Elt Ideal)) :
    (StableHlo.after hostOps2 V (Proc.devRef .tc main_v67) : Row64)
      = shapeCast S1x64 (V (Proc.devRef .tc main_arg14)) shapeCasts_S64_S1x64 := by
  after_results; rfl

/-! ## The edge list's rows at the later boundaries -/

theorem W1_v1 (c : Dev nD) : (W1 m ρ c (Proc.devRef .tc main_v1) : Ends) = srcOf (m ((c.tc : Thread nD τ).loc main_arg1)) := host0_v1 _
theorem W1_v3 (c : Dev nD) : (W1 m ρ c (Proc.devRef .tc main_v3) : Ends) = dstOf (m ((c.tc : Thread nD τ).loc main_arg1)) := host0_v3 _
theorem W2_v1 (c : Dev nD) : (W2 m ρ c (Proc.devRef .tc main_v1) : Ends) = srcOf (m ((c.tc : Thread nD τ).loc main_arg1)) :=
  (W2_keep m ρ c main_v1 (by decide)).trans (W1_v1 m ρ c)
theorem W2_v3 (c : Dev nD) : (W2 m ρ c (Proc.devRef .tc main_v3) : Ends) = dstOf (m ((c.tc : Thread nD τ).loc main_arg1)) :=
  (W2_keep m ρ c main_v3 (by decide)).trans (W1_v3 m ρ c)
theorem W4_v1 (c : Dev nD) : (W4 m ρ c (Proc.devRef .tc main_v1) : Ends) = srcOf (m ((c.tc : Thread nD τ).loc main_arg1)) :=
  ((W4_keep m ρ c main_v1 (by decide)).trans (W3_keep m ρ c main_v1 (by decide))).trans (W2_v1 m ρ c)
theorem W4_v3 (c : Dev nD) : (W4 m ρ c (Proc.devRef .tc main_v3) : Ends) = dstOf (m ((c.tc : Thread nD τ).loc main_arg1)) :=
  ((W4_keep m ρ c main_v3 (by decide)).trans (W3_keep m ρ c main_v3 (by decide))).trans (W2_v3 m ρ c)

/-! ## The regions' output arrays -/

/-- What the first region's write-backs leave in its output array, and the second's. -/
abbrev H1 (c : Dev nD) : Tab := (dat0 (V1 m ρ) c).arrAt 5 cfg0.N
abbrev H2 (c : Dev nD) : Tab := (dat1 (V3 m ρ) c).arrAt 8 cfg1.N

theorem W2_v24 (c : Dev nD) : (W2 m ρ c (Proc.devRef .tc main_v24) : Tab) = H1 m ρ c := W2_arr m ρ c 5
theorem W4_v46 (c : Dev nD) : (W4 m ρ c (Proc.devRef .tc main_v46) : Tab) = H2 m ρ c := W4_arr m ρ c 8

/-! ## Region 0's entry -/

theorem V1_v22 (c : Dev nD) : (V1 m ρ c main_v22 : Tab) = mean (m ((c.tc : Thread nD τ).loc main_arg0)) (m ((c.tc : Thread nD τ).loc main_arg1)) := host0_v22 _
theorem V1_arg0 (c : Dev nD) : V1 m ρ c main_arg0 = (m ((c.tc : Thread nD τ).loc main_arg0)) := W1_keep m ρ c main_arg0 (by decide)
theorem V1_arg2 (c : Dev nD) : V1 m ρ c main_arg2 = (m ((c.tc : Thread nD τ).loc main_arg2)) := W1_keep m ρ c main_arg2 (by decide)
theorem V1_arg3 (c : Dev nD) : V1 m ρ c main_arg3 = (m ((c.tc : Thread nD τ).loc main_arg3)) := W1_keep m ρ c main_arg3 (by decide)
theorem V1_v23 (c : Dev nD) :
    (V1 m ρ c main_v23 : Row) = shapeCast S1x128 (m ((c.tc : Thread nD τ).loc main_arg4)) shapeCasts_S128_S1x128 := host0_v23 _

/-! ## Region 1's entry -/

theorem V3_v24 (c : Dev nD) : (V3 m ρ c main_v24 : Tab) = H1 m ρ c :=
  (W3_keep m ρ c main_v24 (by decide)).trans (W2_v24 m ρ c)
theorem V3_v43 (c : Dev nD) : (V3 m ρ c main_v43 : Tab) = mean (H1 m ρ c) (m ((c.tc : Thread nD τ).loc main_arg1)) := by
  refine (host1_v43 _).trans ?_
  rw [W2_v24, W2_v1, W2_v3]; rfl
theorem V3_arg0 (c : Dev nD) : V3 m ρ c main_arg0 = (m ((c.tc : Thread nD τ).loc main_arg0)) :=
  W3_launch m ρ c main_arg0 (by decide) (by decide) (by decide)
theorem V3_arg5 (c : Dev nD) : V3 m ρ c main_arg5 = (m ((c.tc : Thread nD τ).loc main_arg5)) :=
  W3_launch m ρ c main_arg5 (by decide) (by decide) (by decide)
theorem V3_arg6 (c : Dev nD) : V3 m ρ c main_arg6 = (m ((c.tc : Thread nD τ).loc main_arg6)) :=
  W3_launch m ρ c main_arg6 (by decide) (by decide) (by decide)
theorem V3_arg11 (c : Dev nD) : V3 m ρ c main_arg11 = (m ((c.tc : Thread nD τ).loc main_arg11)) :=
  W3_launch m ρ c main_arg11 (by decide) (by decide) (by decide)
theorem V3_v44 (c : Dev nD) :
    (V3 m ρ c main_v44 : Row) = shapeCast S1x128 (m ((c.tc : Thread nD τ).loc main_arg7)) shapeCasts_S128_S1x128 := by
  refine (host1_v44 _).trans ?_
  rw [W2_launch m ρ c main_arg7 (by decide) (by decide)]
theorem V3_v45 (c : Dev nD) :
    (V3 m ρ c main_v45 : Row) = shapeCast S1x128 (m ((c.tc : Thread nD τ).loc main_arg12)) shapeCasts_S128_S1x128 := by
  refine (host1_v45 _).trans ?_
  rw [W2_launch m ρ c main_arg12 (by decide) (by decide)]

/-! ## Region 2's entry -/

theorem V5_v46 (c : Dev nD) : (V5 m ρ c main_v46 : Tab) = H2 m ρ c :=
  (W5_keep m ρ c main_v46 (by decide)).trans (W4_v46 m ρ c)
theorem V5_v65 (c : Dev nD) : (V5 m ρ c main_v65 : Tab) = mean (H2 m ρ c) (m ((c.tc : Thread nD τ).loc main_arg1)) := by
  refine (host2_v65 _).trans ?_
  rw [W4_v46, W4_v1, W4_v3]; rfl
theorem V5_arg0 (c : Dev nD) : V5 m ρ c main_arg0 = (m ((c.tc : Thread nD τ).loc main_arg0)) :=
  W5_launch m ρ c main_arg0 (by decide) (by decide) (by decide) (by decide) (by decide)
theorem V5_arg8 (c : Dev nD) : V5 m ρ c main_arg8 = (m ((c.tc : Thread nD τ).loc main_arg8)) :=
  W5_launch m ρ c main_arg8 (by decide) (by decide) (by decide) (by decide) (by decide)
theorem V5_arg9 (c : Dev nD) : V5 m ρ c main_arg9 = (m ((c.tc : Thread nD τ).loc main_arg9)) :=
  W5_launch m ρ c main_arg9 (by decide) (by decide) (by decide) (by decide) (by decide)
theorem V5_arg13 (c : Dev nD) : V5 m ρ c main_arg13 = (m ((c.tc : Thread nD τ).loc main_arg13)) :=
  W5_launch m ρ c main_arg13 (by decide) (by decide) (by decide) (by decide) (by decide)
theorem V5_v66 (c : Dev nD) :
    (V5 m ρ c main_v66 : Row64) = shapeCast S1x64 (m ((c.tc : Thread nD τ).loc main_arg10)) shapeCasts_S64_S1x64 := by
  refine (host2_v66 _).trans ?_
  rw [W4_launch m ρ c main_arg10 (by decide) (by decide) (by decide) (by decide)]
theorem V5_v67 (c : Dev nD) :
    (V5 m ρ c main_v67 : Row64) = shapeCast S1x64 (m ((c.tc : Thread nD τ).loc main_arg14)) shapeCasts_S64_S1x64 := by
  refine (host2_v67 _).trans ?_
  rw [W4_launch m ρ c main_arg14 (by decide) (by decide) (by decide) (by decide)]

/-! ## The result buffer -/

/-- The program's result buffer ends at what the third region's write-backs leave in its output array. -/
theorem W6_v68 (c : Dev nD) :
    (W6 m ρ c (Proc.devRef .tc main_v68) : Tab64) = (dat2 (V5 m ρ) c).arrAt 8 cfg2.N := W6_arr m ρ c 8

end Cert.KernelIdeal.Entry

end
-- ==== Proof.LibRowBias.lean ====
/-
  One row broadcast down a block of rows, against the same row broadcast down a tall table: a row [1, N] laid down
  TM rows by a vector broadcast is, for ANY map ρ of the TM row numbers into the M row numbers, the rows ρ 0, ρ 1, …
  of the same row laid down M rows by a host broadcast_in_dim along both axes. Any sizes, any element type.
-/
import Idealize.ShloMosaic.Lib.Pipeline.Value
import Idealize.ShloMosaic.Lib.ValueIdx
import Idealize.ShloMosaic.Lib.ValueLayout
import proofs.«176743_j2044404433055_1_alg».proof.Proof.LibBlockRows

noncomputable section

namespace Cert.RowBias

open Idealize.ShloMosaic Idealize.ShloMosaic.ValueIdx Cert.BlockRows

/-- One row of N numbers broadcast down TM rows is any TM picked rows of the same row broadcast down M rows. -/
theorem biasRow_rows {α : Type} {TM M N : Nat} (ρ : Fin TM → Fin M)
    (hb : (⟨2, ![1, N]⟩ : Shape).Broadcasts ⟨2, ![TM, N]⟩)
    (h2 : (⟨2, ![1, N]⟩ : Shape).BroadcastsInDim ⟨2, ![M, N]⟩ ![0, 1]) (B : (⟨2, ![1, N]⟩ : Shape).Idx → α) :
    broadcastTo ⟨2, ![TM, N]⟩ B hb = rowsOf ρ (broadcastInDim ⟨2, ![M, N]⟩ ![0, 1] h2 B) := by
  funext j
  obtain ⟨p, c, rfl⟩ : ∃ (p : Fin TM) (c : Fin N), j = ix2 p c := ⟨j 0, j 1, eq_ix2 j⟩
  rw [broadcastTo_1b_ab_apply, rowsOf_apply]
  refine (broadcastInDim_apply _ h2 B (ix2 (ρ p) c) (ix2 (0 : Fin 1) c) fun a => ?_).symm
  match a with
  | ⟨0, _⟩ => show (0 : Fin 1).val = if (1 : Nat) = 1 then 0 else (ρ p).val; rw [if_pos rfl]; rfl
  | ⟨1, _⟩ =>
    show c.val = if N = 1 then 0 else c.val
    split
    · have := c.isLt; omega
    · rfl

end Cert.RowBias

end
-- ==== Proof.Region0.lean ====
/-
  Region 0 of the kernel, read as a whole-array function. The region runs its body once per block of 2000 rows:
  at point t it reads rows 2000·t … 2000·t + 1999 of each tall table, the weight tables and bias rows whole, and
  writes the same rows of its output. Every operation of the body acts on each row separately, so the block it
  writes is those rows of the first layer computed on the whole tables; the 25 blocks cover the 50000 rows, so the output
  array after the run is the first layer of the tables the region was entered with — whatever those tables are.
-/
import proofs.«176743_j2044404433055_1_alg».proof.Proof.Gen.KernelIdeal.Frame
import proofs.«176743_j2044404433055_1_alg».proof.Proof.Spec
import proofs.«176743_j2044404433055_1_alg».proof.Proof.LibBlockRows
import proofs.«176743_j2044404433055_1_alg».proof.Proof.LibRowBias
import Idealize.ShloMosaic.Lib.Pipeline.Value
import Idealize.ShloMosaic.Lib.ValueIdx
import Idealize.ShloMosaic.Lib.ValueLayout

set_option maxRecDepth 16384

noncomputable section

namespace Cert.KernelIdeal.Region0

open Cert.KernelIdeal Cert.KernelIdeal.Gen Idealize.ShloMosaic Idealize.ShloMosaic.TcCoe Idealize.ShloMosaic.ValueIdx Idealize.SL.Sem
open Idealize.ShloMosaic.Pipeline (Dat)
open Cert.BlockRows Cert.Sage

variable (V : (c : Dev nD) → (b : Ref sig .tc) → Buf (Elt Ideal) ((c : Thread nD τ).loc b))

theorem hz : (![0, 0] : Fin 2 → Nat) = fun _ => 0 := funext fun a => by fin_cases a <;> rfl

/-- Block t of the tall windows and of the output starts at row 2000·t; the weight tables and the bias rows are
    read whole at every point. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The rows of block t: 2000·t, …, 2000·t + 1999. -/
def rowsAt (t : Fin cfg0.N) : Fin 2000 → Fin 50000 := fun p =>
  ⟨2000 * t.val + p.val, by have h1 := t.isLt; have h2 : cfg0.N = 25 := N_0; have h3 := p.isLt; omega⟩

/-- Block t of this tall table is its rows 2000·t … 2000·t + 1999. -/
theorem blk0_0 (c : Dev nD) (t : Fin cfg0.N) : iblk0 V c 0 t = rowsOf (rowsAt t) (V c main_v22) := by
  obtain ⟨e0, e1, -⟩ := idx0 t
  funext y
  show V c main_v22 (((cfg0.win 0).blk t).view.emb y) = V c main_v22 (ix2 (rowsAt t (y 0)) (y 1))
  refine congrArg (V c main_v22) ?_
  funext a; apply Fin.ext
  match a with
  | ⟨0, _⟩ => show win0_0.index t (0 : Fin 2) * 2000 + 1 * (y 0).val = 2000 * t.val + (y 0).val; omega
  | ⟨1, _⟩ => show win0_0.index t (1 : Fin 2) * 128 + 1 * (y 1).val = (y 1).val; omega

/-- Block t of this tall table is its rows 2000·t … 2000·t + 1999. -/
theorem blk0_1 (c : Dev nD) (t : Fin cfg0.N) : iblk0 V c 1 t = rowsOf (rowsAt t) (V c main_arg0) := by
  obtain ⟨-, -, e0, e1, -⟩ := idx0 t
  funext y
  show V c main_arg0 (((cfg0.win 1).blk t).view.emb y) = V c main_arg0 (ix2 (rowsAt t (y 0)) (y 1))
  refine congrArg (V c main_arg0) ?_
  funext a; apply Fin.ext
  match a with
  | ⟨0, _⟩ => show win0_1.index t (0 : Fin 2) * 2000 + 1 * (y 0).val = 2000 * t.val + (y 0).val; omega
  | ⟨1, _⟩ => show win0_1.index t (1 : Fin 2) * 128 + 1 * (y 1).val = (y 1).val; omega

/-- This small table is read whole at every point. -/
theorem blk0_2 (c : Dev nD) (t : Fin cfg0.N) : iblk0 V c 2 t = V c main_arg2 := by
  obtain ⟨-, -, -, -, e0, e1, -⟩ := idx0 t
  funext y
  show V c main_arg2 (((cfg0.win 2).blk t).view.emb y) = V c main_arg2 y
  refine congrArg (V c main_arg2) ?_
  funext a; apply Fin.ext
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- This small table is read whole at every point. -/
theorem blk0_3 (c : Dev nD) (t : Fin cfg0.N) : iblk0 V c 3 t = V c main_arg3 := by
  obtain ⟨-, -, -, -, -, -, e0, e1, -⟩ := idx0 t
  funext y
  show V c main_arg3 (((cfg0.win 3).blk t).view.emb y) = V c main_arg3 y
  refine congrArg (V c main_arg3) ?_
  funext a; apply Fin.ext
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- This small table is read whole at every point. -/
theorem blk0_4 (c : Dev nD) (t : Fin cfg0.N) : iblk0 V c 4 t = V c main_v23 := by
  obtain ⟨-, -, -, -, -, -, -, -, e0, e1, -⟩ := idx0 t
  funext y
  show V c main_v23 (((cfg0.win 4).blk t).view.emb y) = V c main_v23 y
  refine congrArg (V c main_v23) ?_
  funext a; apply Fin.ext
  match a with
  | ⟨0, _⟩ => show win0_4.index t (0 : Fin 2) * 1 + 1 * (y 0).val = (y 0).val; omega
  | ⟨1, _⟩ => show win0_4.index t (1 : Fin 2) * 128 + 1 * (y 1).val = (y 1).val; omega

/-- The body on picked rows of the mean and node tables is the picked rows of the first layer on the whole tables:
    each product acts row by row, the bias row is the same for every row, and so is the maximum with zero. -/
theorem pay0_rows (ρ : Fin 2000 → Fin 50000) (Mn X : Tab) (Wn Wr : Wt) (B : Row) :
    k0_pay1 (F := Ideal) (rowsOf ρ Mn) (rowsOf ρ X) Wn Wr B = rowsOf ρ (layer1 Mn X Wn Wr B) := by
  unfold k0_pay1 layer1 sage
  dsimp only
  simp only [shapeCast_self]
  have e1 := matmul_rows ρ none none (truncf .bf16 (rowsOf ρ Mn) bitsLt_bf16_f32) (truncf .bf16 Wn bitsLt_bf16_f32) Mn Wn (fun _ _ => rfl) (fun _ _ => rfl)
  have e2 := matmul_rows ρ none none (truncf .bf16 (rowsOf ρ X) bitsLt_bf16_f32) (truncf .bf16 Wr bitsLt_bf16_f32) X Wr (fun _ _ => rfl) (fun _ _ => rfl)
  have e3 := Cert.RowBias.biasRow_rows ρ broadcasts_S1x128_S2000x128 hb B
  refine (congrArg₂ maximumf (congrArg₂ addf (congrArg₂ addf e1 e2) e3) rfl).trans ?_
  exact relu_rows ρ h0 (addf (addf (propagate Mn Wn) (propagate X Wr)) (broadcastInDim ⟨2, ![50000, 128]⟩ ![0, 1] hb B))

/-- Rows 2000·t … 2000·t + 1999 of a table, written back through the output window at point t, are block t of the table. -/
theorem cut0_rows (G : S50000x128.Idx → EReal) (t : Fin cfg0.N) :
    (cfg0.win 5).cut (grid0.coords t) (rowsOf (rowsAt t) G) = ((cfg0.win 5).blk t).view.read (Elt Ideal) G := by
  obtain ⟨-, -, -, -, -, -, -, -, -, -, e0, e1⟩ := idx0 t
  funext j
  show G (ix2 (rowsAt t (j 0)) (j 1)) = G (((cfg0.win 5).blk t).view.emb j)
  refine congrArg G ?_
  funext a; apply Fin.ext
  match a with
  | ⟨0, _⟩ => show 2000 * t.val + (j 0).val = win0_5.index t (0 : Fin 2) * 2000 + 1 * (j 0).val; omega
  | ⟨1, _⟩ => show (j 1).val = win0_5.index t (1 : Fin 2) * 128 + 1 * (j 1).val; omega

/-- What point t writes back is block t of the layer of the tables the region is entered with. -/
theorem flushed0_eq (c : Dev nD) (t : Fin cfg0.N) :
    (dat0 V c).flushed 5 t = ((cfg0.win 5).blk t).view.read (Elt Ideal)
      (layer1 (V c main_v22) (V c main_arg0) (V c main_arg2) (V c main_arg3) (V c main_v23)) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x128) hz, View.ld_unit_zero (S := S1x128) hz]
  rw [blk0_0, blk0_1, blk0_2, blk0_3, blk0_4]
  rw [pay0_rows (rowsAt t) (V c main_v22) (V c main_arg0) (V c main_arg2) (V c main_arg3) (V c main_v23)]
  exact cut0_rows _ t

/-- An index is in point t's block iff each coordinate is in the block's range on its axis. -/
theorem mem_blk0 (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v24).slice (win0_5.rect t)).set ↔ _
  rw [View.set_slice_whole, Rect.mem_set_unit]
  exact Iff.rfl

/-- Row r lies in block r / 2000: the 25 blocks of 2000 rows cover the 50000 rows. -/
theorem cover0 (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 25 := N_0
  obtain ⟨t, ht⟩ : ∃ t : Fin cfg0.N, t.val = (i 0).val / 2000 := ⟨⟨(i 0).val / 2000, by omega⟩, rfl⟩
  obtain ⟨-, -, -, -, -, -, -, -, -, -, e0, e1⟩ := idx0 t
  refine ⟨t, flush0_5 t, ?_⟩
  rw [mem_blk0]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 128 ≤ (i 1).val ∧ (i 1).val < win0_5.index t (1 : Fin 2) * 128 + 128; omega

/-- The region's output array after its run: the layer of the tables it was entered with. -/
theorem final0 (c : Dev nD) :
    (dat0 V c).arrAt 5 cfg0.N = layer1 (V c main_v22) (V c main_arg0) (V c main_arg2) (V c main_arg3) (V c main_v23) :=
  (dat0 V c).arrAt_eq_of_cover 5 _ (fun t _ => flushed0_eq V c t) cover0

end Cert.KernelIdeal.Region0

end
-- ==== Proof.Region1.lean ====
/-
  Region 1 of the kernel, read as a whole-array function. The region runs its body once per block of 2000 rows:
  at point t it reads rows 2000·t … 2000·t + 1999 of each tall table, the weight tables and bias rows whole, and
  writes the same rows of its output. Every operation of the body acts on each row separately, so the block it
  writes is those rows of the second layer computed on the whole tables; the 25 blocks cover the 50000 rows, so the output
  array after the run is the second layer of the tables the region was entered with — whatever those tables are.
-/
import proofs.«176743_j2044404433055_1_alg».proof.Proof.Gen.KernelIdeal.Frame
import proofs.«176743_j2044404433055_1_alg».proof.Proof.Spec
import proofs.«176743_j2044404433055_1_alg».proof.Proof.LibBlockRows
import proofs.«176743_j2044404433055_1_alg».proof.Proof.LibRowBias
import Idealize.ShloMosaic.Lib.Pipeline.Value
import Idealize.ShloMosaic.Lib.ValueIdx
import Idealize.ShloMosaic.Lib.ValueLayout

set_option maxRecDepth 16384

noncomputable section

namespace Cert.KernelIdeal.Region1

open Cert.KernelIdeal Cert.KernelIdeal.Gen Idealize.ShloMosaic Idealize.ShloMosaic.TcCoe Idealize.ShloMosaic.ValueIdx Idealize.SL.Sem
open Idealize.ShloMosaic.Pipeline (Dat)
open Cert.BlockRows Cert.Sage

variable (V : (c : Dev nD) → (b : Ref sig .tc) → Buf (Elt Ideal) ((c : Thread nD τ).loc b))

theorem hz : (![0, 0] : Fin 2 → Nat) = fun _ => 0 := funext fun a => by fin_cases a <;> rfl

/-- Block t of the tall windows and of the output starts at row 2000·t; the weight tables and the bias rows are
    read whole at every point. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

/-- The rows of block t: 2000·t, …, 2000·t + 1999. -/
def rowsAt (t : Fin cfg1.N) : Fin 2000 → Fin 50000 := fun p =>
  ⟨2000 * t.val + p.val, by have h1 := t.isLt; have h2 : cfg1.N = 25 := N_1; have h3 := p.isLt; omega⟩

/-- Block t of this tall table is its rows 2000·t … 2000·t + 1999. -/
theorem blk1_0 (c : Dev nD) (t : Fin cfg1.N) : iblk1 V c 0 t = rowsOf (rowsAt t) (V c main_v24) := by
  obtain ⟨e0, e1, -⟩ := idx1 t
  funext y
  show V c main_v24 (((cfg1.win 0).blk t).view.emb y) = V c main_v24 (ix2 (rowsAt t (y 0)) (y 1))
  refine congrArg (V c main_v24) ?_
  funext a; apply Fin.ext
  match a with
  | ⟨0, _⟩ => show win1_0.index t (0 : Fin 2) * 2000 + 1 * (y 0).val = 2000 * t.val + (y 0).val; omega
  | ⟨1, _⟩ => show win1_0.index t (1 : Fin 2) * 128 + 1 * (y 1).val = (y 1).val; omega

/-- Block t of this tall table is its rows 2000·t … 2000·t + 1999. -/
theorem blk1_1 (c : Dev nD) (t : Fin cfg1.N) : iblk1 V c 1 t = rowsOf (rowsAt t) (V c main_v43) := by
  obtain ⟨-, -, e0, e1, -⟩ := idx1 t
  funext y
  show V c main_v43 (((cfg1.win 1).blk t).view.emb y) = V c main_v43 (ix2 (rowsAt t (y 0)) (y 1))
  refine congrArg (V c main_v43) ?_
  funext a; apply Fin.ext
  match a with
  | ⟨0, _⟩ => show win1_1.index t (0 : Fin 2) * 2000 + 1 * (y 0).val = 2000 * t.val + (y 0).val; omega
  | ⟨1, _⟩ => show win1_1.index t (1 : Fin 2) * 128 + 1 * (y 1).val = (y 1).val; omega

/-- Block t of this tall table is its rows 2000·t … 2000·t + 1999. -/
theorem blk1_2 (c : Dev nD) (t : Fin cfg1.N) : iblk1 V c 2 t = rowsOf (rowsAt t) (V c main_arg0) := by
  obtain ⟨-, -, -, -, e0, e1, -⟩ := idx1 t
  funext y
  show V c main_arg0 (((cfg1.win 2).blk t).view.emb y) = V c main_arg0 (ix2 (rowsAt t (y 0)) (y 1))
  refine congrArg (V c main_arg0) ?_
  funext a; apply Fin.ext
  match a with
  | ⟨0, _⟩ => show win1_2.index t (0 : Fin 2) * 2000 + 1 * (y 0).val = 2000 * t.val + (y 0).val; omega
  | ⟨1, _⟩ => show win1_2.index t (1 : Fin 2) * 128 + 1 * (y 1).val = (y 1).val; omega

/-- This small table is read whole at every point. -/
theorem blk1_3 (c : Dev nD) (t : Fin cfg1.N) : iblk1 V c 3 t = V c main_arg5 := by
  obtain ⟨-, -, -, -, -, -, e0, e1, -⟩ := idx1 t
  funext y
  show V c main_arg5 (((cfg1.win 3).blk t).view.emb y) = V c main_arg5 y
  refine congrArg (V c main_arg5) ?_
  funext a; apply Fin.ext
  match a with
  | ⟨0, _⟩ => show win1_3.index t (0 : Fin 2) * 128 + 1 * (y 0).val = (y 0).val; omega
  | ⟨1, _⟩ => show win1_3.index t (1 : Fin 2) * 128 + 1 * (y 1).val = (y 1).val; omega

/-- This small table is read whole at every point. -/
theorem blk1_4 (c : Dev nD) (t : Fin cfg1.N) : iblk1 V c 4 t = V c main_arg6 := by
  obtain ⟨-, -, -, -, -, -, -, -, e0, e1, -⟩ := idx1 t
  funext y
  show V c main_arg6 (((cfg1.win 4).blk t).view.emb y) = V c main_arg6 y
  refine congrArg (V c main_arg6) ?_
  funext a; apply Fin.ext
  match a with
  | ⟨0, _⟩ => show win1_4.index t (0 : Fin 2) * 128 + 1 * (y 0).val = (y 0).val; omega
  | ⟨1, _⟩ => show win1_4.index t (1 : Fin 2) * 128 + 1 * (y 1).val = (y 1).val; omega

/-- This small table is read whole at every point. -/
theorem blk1_5 (c : Dev nD) (t : Fin cfg1.N) : iblk1 V c 5 t = V c main_v44 := by
  obtain ⟨-, -, -, -, -, -, -, -, -, -, e0, e1, -⟩ := idx1 t
  funext y
  show V c main_v44 (((cfg1.win 5).blk t).view.emb y) = V c main_v44 y
  refine congrArg (V c main_v44) ?_
  funext a; apply Fin.ext
  match a with
  | ⟨0, _⟩ => show win1_5.index t (0 : Fin 2) * 1 + 1 * (y 0).val = (y 0).val; omega
  | ⟨1, _⟩ => show win1_5.index t (1 : Fin 2) * 128 + 1 * (y 1).val = (y 1).val; omega

/-- This small table is read whole at every point. -/
theorem blk1_6 (c : Dev nD) (t : Fin cfg1.N) : iblk1 V c 6 t = V c main_arg11 := by
  obtain ⟨-, -, -, -, -, -, -, -, -, -, -, -, e0, e1, -⟩ := idx1 t
  funext y
  show V c main_arg11 (((cfg1.win 6).blk t).view.emb y) = V c main_arg11 y
  refine congrArg (V c main_arg11) ?_
  funext a; apply Fin.ext
  match a with
  | ⟨0, _⟩ => show win1_6.index t (0 : Fin 2) * 128 + 1 * (y 0).val = (y 0).val; omega
  | ⟨1, _⟩ => show win1_6.index t (1 : Fin 2) * 128 + 1 * (y 1).val = (y 1).val; omega

/-- This small table is read whole at every point. -/
theorem blk1_7 (c : Dev nD) (t : Fin cfg1.N) : iblk1 V c 7 t = V c main_v45 := by
  obtain ⟨-, -, -, -, -, -, -, -, -, -, -, -, -, -, e0, e1, -⟩ := idx1 t
  funext y
  show V c main_v45 (((cfg1.win 7).blk t).view.emb y) = V c main_v45 y
  refine congrArg (V c main_v45) ?_
  funext a; apply Fin.ext
  match a with
  | ⟨0, _⟩ => show win1_7.index t (0 : Fin 2) * 1 + 1 * (y 0).val = (y 0).val; omega
  | ⟨1, _⟩ => show win1_7.index t (1 : Fin 2) * 128 + 1 * (y 1).val = (y 1).val; omega

/-- The body on picked rows of the three tall tables is the picked rows of the second layer on the whole tables:
    each product acts row by row, a bias row is the same for every row, and so are the maximum with zero and the sum. -/
theorem pay1_rows (ρ : Fin 2000 → Fin 50000) (H Mn Z : Tab) (Wn Wr : Wt) (B : Row) (Wres : Wt) (Bres : Row) :
    k1_pay1 (F := Ideal) (rowsOf ρ Mn) (rowsOf ρ H) (rowsOf ρ Z) Wn Wr Wres B Bres = rowsOf ρ (layer2 H Mn Z Wn Wr B Wres Bres) := by
  unfold k1_pay1 layer2 sage resid
  dsimp only
  simp only [shapeCast_self]
  have e1 := matmul_rows ρ none none (truncf .bf16 (rowsOf ρ Mn) bitsLt_bf16_f32) (truncf .bf16 Wn bitsLt_bf16_f32) Mn Wn (fun _ _ => rfl) (fun _ _ => rfl)
  have e2 := matmul_rows ρ none none (truncf .bf16 (rowsOf ρ H) bitsLt_bf16_f32) (truncf .bf16 Wr bitsLt_bf16_f32) H Wr (fun _ _ => rfl) (fun _ _ => rfl)
  have e3 := Cert.RowBias.biasRow_rows ρ broadcasts_S1x128_S2000x128 hb B
  have e4 := matmul_rows ρ none none (truncf .bf16 (rowsOf ρ Z) bitsLt_bf16_f32) (truncf .bf16 Wres bitsLt_bf16_f32) Z Wres (fun _ _ => rfl) (fun _ _ => rfl)
  have e5 := Cert.RowBias.biasRow_rows ρ broadcasts_S1x128_S2000x128 hb Bres
  have e6 := relu_rows ρ h0 (addf (addf (propagate Mn Wn) (propagate H Wr)) (broadcastInDim ⟨2, ![50000, 128]⟩ ![0, 1] hb B))
  exact congrArg₂ addf ((congrArg₂ maximumf (congrArg₂ addf (congrArg₂ addf e1 e2) e3) rfl).trans e6) (congrArg₂ addf e4 e5)

/-- Rows 2000·t … 2000·t + 1999 of a table, written back through the output window at point t, are block t of the table. -/
theorem cut1_rows (G : S50000x128.Idx → EReal) (t : Fin cfg1.N) :
    (cfg1.win 8).cut (grid1.coords t) (rowsOf (rowsAt t) G) = ((cfg1.win 8).blk t).view.read (Elt Ideal) G := by
  obtain ⟨-, -, -, -, -, -, -, -, -, -, -, -, -, -, -, -, e0, e1⟩ := idx1 t
  funext j
  show G (ix2 (rowsAt t (j 0)) (j 1)) = G (((cfg1.win 8).blk t).view.emb j)
  refine congrArg G ?_
  funext a; apply Fin.ext
  match a with
  | ⟨0, _⟩ => show 2000 * t.val + (j 0).val = win1_8.index t (0 : Fin 2) * 2000 + 1 * (j 0).val; omega
  | ⟨1, _⟩ => show (j 1).val = win1_8.index t (1 : Fin 2) * 128 + 1 * (j 1).val; omega

/-- What point t writes back is block t of the layer of the tables the region is entered with. -/
theorem flushed1_eq (c : Dev nD) (t : Fin cfg1.N) :
    (dat1 V c).flushed 8 t = ((cfg1.win 8).blk t).view.read (Elt Ideal)
      (layer2 (V c main_v24) (V c main_v43) (V c main_arg0) (V c main_arg5) (V c main_arg6) (V c main_v44) (V c main_arg11) (V c main_v45)) := by
  show (cfg1.win 8).cut (grid1.coords t) ((dat1 V c).after 8 t) = _
  rw [after1_8]
  unfold out1_8
  rw [View.canon_unit_zero hz]
  simp only [View.ld_unit_zero (S := S2000x128) hz, View.ld_unit_zero (S := S128x128) hz, View.ld_unit_zero (S := S1x128) hz]
  rw [blk1_0, blk1_1, blk1_2, blk1_3, blk1_4, blk1_5, blk1_6, blk1_7]
  rw [pay1_rows (rowsAt t) (V c main_v24) (V c main_v43) (V c main_arg0) (V c main_arg5) (V c main_arg6) (V c main_v44) (V c main_arg11) (V c main_v45)]
  exact cut1_rows _ t

/-- An index is in point t's block iff each coordinate is in the block's range on its axis. -/
theorem mem_blk1 (t : Fin cfg1.N) (i : S50000x128.Idx) :
    i ∈ ((cfg1.win 8).blk t).view.set ↔ ∀ a : Fin 2, win1_8.index t a * S2000x128.size a ≤ (i a).val ∧ (i a).val < win1_8.index t a * S2000x128.size a + S2000x128.size a := by
  show i ∈ ((View.whole main_v46).slice (win1_8.rect t)).set ↔ _
  rw [View.set_slice_whole, Rect.mem_set_unit]
  exact Iff.rfl

/-- Row r lies in block r / 2000: the 25 blocks of 2000 rows cover the 50000 rows. -/
theorem cover1 (i : S50000x128.Idx) : ∃ t : Fin cfg1.N, (cfg1.win 8).flush t = true ∧ i ∈ ((cfg1.win 8).blk t).view.set := by
  have hi0 : (i 0).val < 50000 := (i 0).isLt
  have hi1 : (i 1).val < 128 := (i 1).isLt
  have hN : cfg1.N = 25 := N_1
  obtain ⟨t, ht⟩ : ∃ t : Fin cfg1.N, t.val = (i 0).val / 2000 := ⟨⟨(i 0).val / 2000, by omega⟩, rfl⟩
  obtain ⟨-, -, -, -, -, -, -, -, -, -, -, -, -, -, -, -, e0, e1⟩ := idx1 t
  refine ⟨t, flush1_8 t, ?_⟩
  rw [mem_blk1]
  intro a
  match a with
  | ⟨0, _⟩ => show win1_8.index t (0 : Fin 2) * 2000 ≤ (i 0).val ∧ (i 0).val < win1_8.index t (0 : Fin 2) * 2000 + 2000; omega
  | ⟨1, _⟩ => show win1_8.index t (1 : Fin 2) * 128 ≤ (i 1).val ∧ (i 1).val < win1_8.index t (1 : Fin 2) * 128 + 128; omega

/-- The region's output array after its run: the layer of the tables it was entered with. -/
theorem final1 (c : Dev nD) :
    (dat1 V c).arrAt 8 cfg1.N = layer2 (V c main_v24) (V c main_v43) (V c main_arg0) (V c main_arg5) (V c main_arg6) (V c main_v44) (V c main_arg11) (V c main_v45) :=
  (dat1 V c).arrAt_eq_of_cover 8 _ (fun t _ => flushed1_eq V c t) cover1

end Cert.KernelIdeal.Region1

end
-- ==== Proof.LibScatterSet.lean ====
/-
  An overwriting scatter read at one element.

  A scatter whose update rule keeps the update and forgets the old entry (`x.at[…].set(u)`) is a left fold over the
  update entries in row-major order: each update entry replaces the operand's entry it lands on, when it lands on one.
  Read at one entry i of the result:

  * when no update entry lands on i, the entry is the operand's (`scatter_set_miss`);
  * when some update entry lands on i and all that land there carry one value, the entry is that value
    (`scatter_set_hit`) — in particular when at most one lands there.

  Any shapes, any element type, any index width, any scatter dimension numbers.
-/
import Idealize.ShloMosaic.PureOps.Ideal.Laws
import Idealize.ShloMosaic.Lib.ValueIdx

noncomputable section

namespace Cert.ScatterSet

open Idealize.ShloMosaic

section Fold

variable {ι κ α : Type} [DecidableEq κ]

/-- One step of an overwriting scatter: update `n` replaces the element at `g n`, when there is one. -/
def step (g : ι → Option κ) (v : ι → α) (r : κ → α) (n : ι) : κ → α :=
  match g n with
  | some k => fun i' => if i' = k then v n else r i'
  | none => r

/-- A step whose update lands elsewhere (or nowhere) leaves the element as it was. -/
theorem step_miss (g : ι → Option κ) (v : ι → α) (r : κ → α) (n : ι) (i : κ) (h : g n ≠ some i) :
    step g v r n i = r i := by
  unfold step
  cases hg : g n with
  | none => rfl
  | some k =>
    have hne : i ≠ k := fun e => h (by rw [hg, e])
    simp only [if_neg hne]

/-- A step whose update lands on the element leaves the update's value there. -/
theorem step_hit (g : ι → Option κ) (v : ι → α) (r : κ → α) (n : ι) (i : κ) (h : g n = some i) :
    step g v r n i = v n := by
  unfold step
  rw [h]
  simp only [if_true]

/-- No update lands on `i`: the element is the operand's. -/
theorem foldl_step_miss (g : ι → Option κ) (v : ι → α) (i : κ) (l : List ι) (x : κ → α)
    (h : ∀ n ∈ l, g n ≠ some i) : l.foldl (step g v) x i = x i := by
  induction l generalizing x with
  | nil => rfl
  | cons a l ih =>
    rw [List.foldl_cons, ih _ (fun n hn => h n (List.mem_cons_of_mem _ hn))]
    exact step_miss g v x a i (h a List.mem_cons_self)

/-- An update lands on `i`, and every update landing there carries the same value: the element is that value. -/
theorem foldl_step_hit (g : ι → Option κ) (v : ι → α) (i : κ) (l : List ι) :
    ∀ (x : κ → α) (n₀ : ι), n₀ ∈ l → g n₀ = some i → (∀ n ∈ l, g n = some i → v n = v n₀) →
      l.foldl (step g v) x i = v n₀ := by
  induction l with
  | nil => intro x n₀ hmem; cases hmem
  | cons a l ih =>
    intro x n₀ hmem hg hu
    rw [List.foldl_cons]
    by_cases hex : ∃ n ∈ l, g n = some i
    · obtain ⟨n₁, hn₁, hg₁⟩ := hex
      rw [ih _ n₁ hn₁ hg₁ (fun n hn hgn =>
        (hu n (List.mem_cons_of_mem _ hn) hgn).trans (hu n₁ (List.mem_cons_of_mem _ hn₁) hg₁).symm)]
      exact hu n₁ (List.mem_cons_of_mem _ hn₁) hg₁
    · have hno : ∀ n ∈ l, g n ≠ some i := fun n hn hgn => hex ⟨n, hn, hgn⟩
      rw [foldl_step_miss g v i l _ hno]
      have ha : a = n₀ := by
        rcases List.mem_cons.1 hmem with h | h
        · exact h.symm
        · exact absurd hg (hno n₀ h)
      subst ha
      exact step_hit g v x a i hg

end Fold

section Scatter

variable {s si u : Shape} {w : Nat} {α : Type}

/-- An overwriting scatter is the fold of `step` over the update indices in row-major order. -/
theorem scatter_set_eq (d : ScatterDims s si u) (x : s.Idx → α) (idx : IVec si w) (upd : u.Idx → α) :
    Host.scatter d (fun _ b => b) x idx upd
      = (List.finRange u.numel).foldl
          (step (fun n => d.resultIdx? (u.rowMajor.symm n) idx) (fun n => upd (u.rowMajor.symm n))) x := by
  unfold Host.scatter
  congr 1
  funext r n
  unfold step
  beta_reduce
  generalize d.resultIdx? (u.rowMajor.symm n) idx = o
  cases o <;> rfl

/-- No update entry lands on `i`: entry `i` of the overwriting scatter is the operand's. -/
theorem scatter_set_miss (d : ScatterDims s si u) (x : s.Idx → α) (idx : IVec si w) (upd : u.Idx → α) (i : s.Idx)
    (h : ∀ j, d.resultIdx? j idx ≠ some i) : Host.scatter d (fun _ b => b) x idx upd i = x i := by
  rw [scatter_set_eq]
  exact foldl_step_miss _ _ i _ x (fun n _ => h _)

/-- Update entry `j₀` lands on `i`, and every update entry landing on `i` carries the value of `j₀`: entry `i` of the
    overwriting scatter is that value. -/
theorem scatter_set_hit (d : ScatterDims s si u) (x : s.Idx → α) (idx : IVec si w) (upd : u.Idx → α) (i : s.Idx)
    (j₀ : u.Idx) (h : d.resultIdx? j₀ idx = some i) (hu : ∀ j, d.resultIdx? j idx = some i → upd j = upd j₀) :
    Host.scatter d (fun _ b => b) x idx upd i = upd j₀ := by
  rw [scatter_set_eq]
  have := foldl_step_hit (fun n => d.resultIdx? (u.rowMajor.symm n) idx) (fun n => upd (u.rowMajor.symm n)) i
    (List.finRange u.numel) x (u.rowMajor j₀) (List.mem_finRange _)
    (by simpa using h) (fun n _ hn => by simpa using hu _ hn)
  simpa using this

end Scatter

end Cert.ScatterSet

end
-- ==== Proof.Gate.lean ====
/-
  The last layer's gate — the logistic function on the first 8 of 64 columns, the identity on the others — in the two
  spellings the programs use, each equal to `Cert.Sage.gate`.

  * The kernel numbers the columns (an iota along axis 1), compares the number with 8 as signed 32-bit words, and
    selects between the logistic function of an entry and the entry itself. A column number is below 64, so the
    signed comparison of its word with 8 is the comparison of the numbers.

  * The reference cuts columns 0…7 out of the table, computes 1 / (1 + exp (−s)) on the cut, and writes the cut back
    over the table by a scatter with ONE index: one window of 50000 × 8 entries placed at column offset 0, each update
    replacing the entry it lands on. A scatter is a left fold over the update entries in row-major order; where each
    entry of the table is landed on by at most one update, the fold's result at an entry is that update, or the
    table's own entry when no update lands there (`scatter_set_hit`, `scatter_set_miss`, for any scatter that
    overwrites). Here update (r, q) lands on entry (r, q), so entry (r, q) of the result is the window's when q < 8
    and the table's otherwise; and 1 / (1 + exp (−s)) is the logistic function on the extended reals, the 32-bit
    pattern 0x3F800000 being the number one.
-/
import proofs.«176743_j2044404433055_1_alg».proof.Proof.Spec
import proofs.«176743_j2044404433055_1_alg».proof.Proof.LibScatterSet
import proofs.«176743_j2044404433055_1_alg».proof.Proof.Gen.ReferenceIdeal.Read
import Idealize.ShloMosaic.Lib.ValueIdx
import Idealize.ShloMosaic.Lib.Pipeline.Value
import Idealize.ShloMosaic.PureOps.Ideal.Laws

noncomputable section

namespace Cert.Sage.Gate

open Idealize.ShloMosaic Cert.ScatterSet

/-! ## The reference's spelling -/

section Reference

open Cert.ReferenceIdeal Cert.ReferenceIdeal.Gen Cert.ReferenceIdeal.Read

/-- Where update element `j` of the one window lands: the same row, the same column. -/
theorem resultIdx_window (idx : IVec S1 32) (hidx : ∀ k, idx k = 0#32) (j : S50000x8.Idx) :
    scatter_S50000x64_S1_S50000x8_01_n_1_0.resultIdx? j idx = some (idx_main_v91 j) := by
  have hs : ∀ a, scatter_S50000x64_S1_S50000x8_01_n_1_0.start j idx a = 0 := by
    intro a
    unfold ScatterDims.start
    split
    · rw [hidx]; rfl
    · rfl
  have hw : ∀ a, scatter_S50000x64_S1_S50000x8_01_n_1_0.window j a = (idx_main_v91 j a).val := by
    intro a
    match a with
    | ⟨0, _⟩ => rfl
    | ⟨1, _⟩ => rfl
  unfold ScatterDims.resultIdx?
  rw [dif_pos (by
    intro a
    rw [hs, hw]
    have := (idx_main_v91 j a).isLt
    constructor <;> omega)]
  congr 1
  funext a
  apply Fin.ext
  simp only [hs, hw]
  omega

/-- The column `q < 8` of row `r`, as an index of the window. -/
def winIdx (i : S50000x64.Idx) (h : (i 1).val < 8) : S50000x8.Idx := fun a => match a with
  | ⟨0, _⟩ => ⟨(i 0).val, (i 0).isLt⟩
  | ⟨1, _⟩ => ⟨(i 1).val, h⟩

theorem idx_winIdx (i : S50000x64.Idx) (h : (i 1).val < 8) : idx_main_v91 (winIdx i h) = i := by
  funext a
  match a with
  | ⟨0, _⟩ => rfl
  | ⟨1, _⟩ => rfl

theorem winIdx_unique (i : S50000x64.Idx) (h : (i 1).val < 8) (j : S50000x8.Idx) (hj : idx_main_v91 j = i) :
    j = winIdx i h := by
  subst hj
  funext a
  match a with
  | ⟨0, _⟩ => rfl
  | ⟨1, _⟩ => rfl

/-- One window of 8 columns written over the operand at column 0: the window's element on the columns below 8,
    the operand's on the others. -/
theorem scatter_window_apply {α : Type} (Y : S50000x64.Idx → α) (idx : IVec S1 32) (hidx : ∀ k, idx k = 0#32)
    (W : S50000x8.Idx → α) (i : S50000x64.Idx) :
    Host.scatter scatter_S50000x64_S1_S50000x8_01_n_1_0 (fun _ b => b) Y idx W i
      = if h : (i 1).val < 8 then W (winIdx i h) else Y i := by
  by_cases h : (i 1).val < 8
  · rw [dif_pos h]
    refine scatter_set_hit _ Y idx W i (winIdx i h) ?_ ?_
    · rw [resultIdx_window idx hidx, idx_winIdx]
    · intro j hj
      rw [resultIdx_window idx hidx] at hj
      rw [winIdx_unique i h j (Option.some.inj hj)]
  · rw [dif_neg h]
    refine scatter_set_miss _ Y idx W i ?_
    intro j hj
    rw [resultIdx_window idx hidx] at hj
    have h1 := congrArg (fun k : S50000x64.Idx => (k 1).val) (Option.some.inj hj)
    have h2 : (j 1).val < 8 := (j 1).isLt
    exact h (by
      have h3 : ((idx_main_v91 j) 1).val = (j 1).val := rfl
      simp only at h1
      omega)

theorem ofBits_one : Ideal.ofBits .f32 0x3F800000#32 = 1 := by
  rw [show (1 : EReal) = ((1 : ℝ) : EReal) by norm_cast]
  simp [Ideal.ofBits, Ideal.ieee, -EReal.coe_mul]; norm_num

/-- The reference's gate over any table: columns 0…7 are cut out, sent through 1 / (1 + exp (−·)), and written back
    over the same columns. -/
theorem ref_gate_of (Y : FVec Ideal S50000x64 .f32) :
    Host.scatter scatter_S50000x64_S1_S50000x8_01_n_1_0 (fun _ b => b) Y
        (broadcastInDim S1 ![] bcast_S_S1 (constantI S_ 32 0#32))
        (Host.divf (broadcastInDim S50000x8 ![] bcast_S_S50000x8 (constant (F := Ideal) S_ .f32 0x3F800000#32))
          (addf (broadcastInDim S50000x8 ![] bcast_S_S50000x8 (constant (F := Ideal) S_ .f32 0x3F800000#32))
            (Host.exp (Host.negf (extractStridedSlice S50000x8 ![0, 0] Y slices_S50000x64_S50000x8_0_0)))))
      = Cert.Sage.gate Y := by
  funext i
  rw [scatter_window_apply Y (broadcastInDim S1 ![] bcast_S_S1 (constantI S_ 32 0#32)) (fun _ => rfl)]
  unfold Cert.Sage.gate
  by_cases h : (i 1).val < 8
  · rw [dif_pos h, if_pos h]
    have hsl : extractStridedSlice S50000x8 ![0, 0] Y slices_S50000x64_S50000x8_0_0 (winIdx i h) = Y i := by
      rw [extractStridedSlice_apply ![0, 0] Y slices_S50000x64_S50000x8_0_0 (winIdx i h) (idx_main_v91 (winIdx i h))
        (fun a => match a with
          | ⟨0, _⟩ => by show ((winIdx i h) 0).val = 0 + ((winIdx i h) 0).val; omega
          | ⟨1, _⟩ => by show ((winIdx i h) 1).val = 0 + ((winIdx i h) 1).val; omega), idx_winIdx]
    show Ideal.div (Ideal.ofBits .f32 0x3F800000#32) (Ideal.ofBits .f32 0x3F800000#32 +
        Ideal.exp (-(extractStridedSlice S50000x8 ![0, 0] Y slices_S50000x64_S50000x8_0_0 (winIdx i h)))) = _
    rw [hsl, ofBits_one]
    rfl
  · rw [dif_neg h, if_neg h]

/-- The reference's last table is the gate of the one before it. -/
theorem ref_gate (x0 : (⟨S50000x128, .f32⟩ : BufTy).Contents (Elt Ideal)) (x1 : (⟨S2x800000, .i32⟩ : BufTy).Contents (Elt Ideal)) (x2 x3 : (⟨S128x128, .f32⟩ : BufTy).Contents (Elt Ideal)) (x4 : (⟨S128, .f32⟩ : BufTy).Contents (Elt Ideal)) (x5 x6 : (⟨S128x128, .f32⟩ : BufTy).Contents (Elt Ideal)) (x7 : (⟨S128, .f32⟩ : BufTy).Contents (Elt Ideal)) (x8 x9 : (⟨S128x64, .f32⟩ : BufTy).Contents (Elt Ideal)) (x10 : (⟨S64, .f32⟩ : BufTy).Contents (Elt Ideal)) (x11 : (⟨S128x128, .f32⟩ : BufTy).Contents (Elt Ideal)) (x12 : (⟨S128, .f32⟩ : BufTy).Contents (Elt Ideal)) (x13 : (⟨S128x64, .f32⟩ : BufTy).Contents (Elt Ideal)) (x14 : (⟨S64, .f32⟩ : BufTy).Contents (Elt Ideal)) :
    val_main_v99 (F := Ideal) x0 x1 x2 x3 x4 x5 x6 x7 x8 x9 x10 x11 x12 x13 x14
      = Cert.Sage.gate (val_main_v90 (F := Ideal) x0 x1 x2 x3 x4 x5 x6 x7 x8 x9 x10 x11 x12 x13 x14) :=
  ref_gate_of (val_main_v90 (F := Ideal) x0 x1 x2 x3 x4 x5 x6 x7 x8 x9 x10 x11 x12 x13 x14)

end Reference

/-! ## The kernel's spelling -/

section Kernel

open Cert.KernelIdeal Cert.KernelIdeal.Gen

/-- A column number below 64, as a 32-bit word, is signed-below 8 exactly when it is below 8. -/
theorem col_slt_eight : ∀ c : Fin 64, (BitVec.ofNat 32 c.val).slt 8#32 = decide (c.val < 8) := by decide

/-- The logistic function selected where the column number, as a word, is signed-below 8: the gate. Any number of
    rows, 64 columns. -/
theorem select_gate {M : Nat} (y : FVec Ideal ⟨2, ![M, 64]⟩ .f32) (h : (⟨2, ![M, 64]⟩ : Shape).Iotas .tc 32 [1]) :
    select (cmpi .slt (iota .tc ⟨2, ![M, 64]⟩ 32 [1] h) (broadcast ⟨2, ![M, 64]⟩ 8#32)) (logistic y) y
      = Cert.Sage.gate y := by
  funext i
  rw [ValueIdx.select_apply]
  unfold Cert.Sage.gate
  have hc : cmpi .slt (iota .tc ⟨2, ![M, 64]⟩ 32 [1] h) (broadcast ⟨2, ![M, 64]⟩ 8#32) i
      = BitVec.ofBool (decide ((i 1).val < 8)) := by
    show IntOp.cmpi .slt (iota .tc ⟨2, ![M, 64]⟩ 32 [1] h i) 8#32 = _
    rw [iota_single_apply]
    show BitVec.ofBool ((BitVec.ofNat 32 (i 1).val).slt 8#32) = _
    rw [col_slt_eight (i 1)]
  rw [hc]
  by_cases hq : (i 1).val < 8
  · rw [if_pos hq, decide_eq_true hq]
    exact ValueIdx.select_one _ _
  · rw [if_neg hq, decide_eq_false hq]
    exact ValueIdx.select_zero _ _

/-- The kernel's gate, on a block of 2000 rows. -/
theorem kernel_gate (y : FVec Ideal S2000x64 .f32) :
    select (cmpi .slt (iota .tc S2000x64 32 [1] iota_S2000x64_d1_w32) (broadcast S2000x64 8#32)) (logistic y) y
      = Cert.Sage.gate y :=
  select_gate y iota_S2000x64_d1_w32

/-- The gate acts on each row separately: the gate of the rows `ρ` names is those rows of the gate. -/
theorem gate_rowsOf {TM M N : Nat} (ρ : Fin TM → Fin M) (Y : (⟨2, ![M, N]⟩ : Shape).Idx → EReal) :
    Cert.Sage.gate (Cert.BlockRows.rowsOf ρ Y) = Cert.BlockRows.rowsOf ρ (Cert.Sage.gate Y) := rfl

end Kernel

end Cert.Sage.Gate

end
-- ==== Proof.Region2.lean ====
/-
  Region 2 of the kernel, read as a whole-array function. The region runs its body once per block of 2000 rows:
  at point t it reads rows 2000·t … 2000·t + 1999 of each tall table, the weight tables and bias rows whole, and
  writes the same rows of its output. Every operation of the body acts on each row separately, so the block it
  writes is those rows of the third layer computed on the whole tables; the 25 blocks cover the 50000 rows, so the output
  array after the run is the third layer of the tables the region was entered with — whatever those tables are.
-/
import proofs.«176743_j2044404433055_1_alg».proof.Proof.Gen.KernelIdeal.Frame
import proofs.«176743_j2044404433055_1_alg».proof.Proof.Spec
import proofs.«176743_j2044404433055_1_alg».proof.Proof.LibBlockRows
import proofs.«176743_j2044404433055_1_alg».proof.Proof.LibRowBias
import proofs.«176743_j2044404433055_1_alg».proof.Proof.Gate
import Idealize.ShloMosaic.Lib.Pipeline.Value
import Idealize.ShloMosaic.Lib.ValueIdx
import Idealize.ShloMosaic.Lib.ValueLayout

set_option maxRecDepth 16384

noncomputable section

namespace Cert.KernelIdeal.Region2

open Cert.KernelIdeal Cert.KernelIdeal.Gen Idealize.ShloMosaic Idealize.ShloMosaic.TcCoe Idealize.ShloMosaic.ValueIdx Idealize.SL.Sem
open Idealize.ShloMosaic.Pipeline (Dat)
open Cert.BlockRows Cert.Sage

variable (V : (c : Dev nD) → (b : Ref sig .tc) → Buf (Elt Ideal) ((c : Thread nD τ).loc b))

theorem hz : (![0, 0] : Fin 2 → Nat) = fun _ => 0 := funext fun a => by fin_cases a <;> rfl

/-- Block t of the tall windows and of the output starts at row 2000·t; the weight tables and the bias rows are
    read whole at every point. -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = t.val ∧ win2_8.index t (1 : Fin 2) = 0 :=
  (by decide +kernel : ∀ t : Fin grid2.N, _)

/-- The rows of block t: 2000·t, …, 2000·t + 1999. -/
def rowsAt (t : Fin cfg2.N) : Fin 2000 → Fin 50000 := fun p =>
  ⟨2000 * t.val + p.val, by have h1 := t.isLt; have h2 : cfg2.N = 25 := N_2; have h3 := p.isLt; omega⟩

/-- Block t of this tall table is its rows 2000·t … 2000·t + 1999. -/
theorem blk2_0 (c : Dev nD) (t : Fin cfg2.N) : iblk2 V c 0 t = rowsOf (rowsAt t) (V c main_v46) := by
  obtain ⟨e0, e1, -⟩ := idx2 t
  funext y
  show V c main_v46 (((cfg2.win 0).blk t).view.emb y) = V c main_v46 (ix2 (rowsAt t (y 0)) (y 1))
  refine congrArg (V c main_v46) ?_
  funext a; apply Fin.ext
  match a with
  | ⟨0, _⟩ => show win2_0.index t (0 : Fin 2) * 2000 + 1 * (y 0).val = 2000 * t.val + (y 0).val; omega
  | ⟨1, _⟩ => show win2_0.index t (1 : Fin 2) * 128 + 1 * (y 1).val = (y 1).val; omega

/-- Block t of this tall table is its rows 2000·t … 2000·t + 1999. -/
theorem blk2_1 (c : Dev nD) (t : Fin cfg2.N) : iblk2 V c 1 t = rowsOf (rowsAt t) (V c main_v65) := by
  obtain ⟨-, -, e0, e1, -⟩ := idx2 t
  funext y
  show V c main_v65 (((cfg2.win 1).blk t).view.emb y) = V c main_v65 (ix2 (rowsAt t (y 0)) (y 1))
  refine congrArg (V c main_v65) ?_
  funext a; apply Fin.ext
  match a with
  | ⟨0, _⟩ => show win2_1.index t (0 : Fin 2) * 2000 + 1 * (y 0).val = 2000 * t.val + (y 0).val; omega
  | ⟨1, _⟩ => show win2_1.index t (1 : Fin 2) * 128 + 1 * (y 1).val = (y 1).val; omega

/-- Block t of this tall table is its rows 2000·t … 2000·t + 1999. -/
theorem blk2_2 (c : Dev nD) (t : Fin cfg2.N) : iblk2 V c 2 t = rowsOf (rowsAt t) (V c main_arg0) := by
  obtain ⟨-, -, -, -, e0, e1, -⟩ := idx2 t
  funext y
  show V c main_arg0 (((cfg2.win 2).blk t).view.emb y) = V c main_arg0 (ix2 (rowsAt t (y 0)) (y 1))
  refine congrArg (V c main_arg0) ?_
  funext a; apply Fin.ext
  match a with
  | ⟨0, _⟩ => show win2_2.index t (0 : Fin 2) * 2000 + 1 * (y 0).val = 2000 * t.val + (y 0).val; omega
  | ⟨1, _⟩ => show win2_2.index t (1 : Fin 2) * 128 + 1 * (y 1).val = (y 1).val; omega

/-- This small table is read whole at every point. -/
theorem blk2_3 (c : Dev nD) (t : Fin cfg2.N) : iblk2 V c 3 t = V c main_arg8 := by
  obtain ⟨-, -, -, -, -, -, e0, e1, -⟩ := idx2 t
  funext y
  show V c main_arg8 (((cfg2.win 3).blk t).view.emb y) = V c main_arg8 y
  refine congrArg (V c main_arg8) ?_
  funext a; apply Fin.ext
  match a with
  | ⟨0, _⟩ => show win2_3.index t (0 : Fin 2) * 128 + 1 * (y 0).val = (y 0).val; omega
  | ⟨1, _⟩ => show win2_3.index t (1 : Fin 2) * 64 + 1 * (y 1).val = (y 1).val; omega

/-- This small table is read whole at every point. -/
theorem blk2_4 (c : Dev nD) (t : Fin cfg2.N) : iblk2 V c 4 t = V c main_arg9 := by
  obtain ⟨-, -, -, -, -, -, -, -, e0, e1, -⟩ := idx2 t
  funext y
  show V c main_arg9 (((cfg2.win 4).blk t).view.emb y) = V c main_arg9 y
  refine congrArg (V c main_arg9) ?_
  funext a; apply Fin.ext
  match a with
  | ⟨0, _⟩ => show win2_4.index t (0 : Fin 2) * 128 + 1 * (y 0).val = (y 0).val; omega
  | ⟨1, _⟩ => show win2_4.index t (1 : Fin 2) * 64 + 1 * (y 1).val = (y 1).val; omega

/-- This small table is read whole at every point. -/
theorem blk2_5 (c : Dev nD) (t : Fin cfg2.N) : iblk2 V c 5 t = V c main_v66 := by
  obtain ⟨-, -, -, -, -, -, -, -, -, -, e0, e1, -⟩ := idx2 t
  funext y
  show V c main_v66 (((cfg2.win 5).blk t).view.emb y) = V c main_v66 y
  refine congrArg (V c main_v66) ?_
  funext a; apply Fin.ext
  match a with
  | ⟨0, _⟩ => show win2_5.index t (0 : Fin 2) * 1 + 1 * (y 0).val = (y 0).val; omega
  | ⟨1, _⟩ => show win2_5.index t (1 : Fin 2) * 64 + 1 * (y 1).val = (y 1).val; omega

/-- This small table is read whole at every point. -/
theorem blk2_6 (c : Dev nD) (t : Fin cfg2.N) : iblk2 V c 6 t = V c main_arg13 := by
  obtain ⟨-, -, -, -, -, -, -, -, -, -, -, -, e0, e1, -⟩ := idx2 t
  funext y
  show V c main_arg13 (((cfg2.win 6).blk t).view.emb y) = V c main_arg13 y
  refine congrArg (V c main_arg13) ?_
  funext a; apply Fin.ext
  match a with
  | ⟨0, _⟩ => show win2_6.index t (0 : Fin 2) * 128 + 1 * (y 0).val = (y 0).val; omega
  | ⟨1, _⟩ => show win2_6.index t (1 : Fin 2) * 64 + 1 * (y 1).val = (y 1).val; omega

/-- This small table is read whole at every point. -/
theorem blk2_7 (c : Dev nD) (t : Fin cfg2.N) : iblk2 V c 7 t = V c main_v67 := by
  obtain ⟨-, -, -, -, -, -, -, -, -, -, -, -, -, -, e0, e1, -⟩ := idx2 t
  funext y
  show V c main_v67 (((cfg2.win 7).blk t).view.emb y) = V c main_v67 y
  refine congrArg (V c main_v67) ?_
  funext a; apply Fin.ext
  match a with
  | ⟨0, _⟩ => show win2_7.index t (0 : Fin 2) * 1 + 1 * (y 0).val = (y 0).val; omega
  | ⟨1, _⟩ => show win2_7.index t (1 : Fin 2) * 64 + 1 * (y 1).val = (y 1).val; omega

/-- The body on picked rows of the three tall tables is the picked rows of the third layer on the whole tables:
    the products, the bias rows and the sums act row by row, and the gate looks only at the column number. -/
theorem pay2_rows (ρ : Fin 2000 → Fin 50000) (H Mn Z : Tab) (Wn Wr : Wt64) (B : Row64) (Wres : Wt64) (Bres : Row64) :
    k2_pay1 (F := Ideal) (rowsOf ρ Mn) (rowsOf ρ H) (rowsOf ρ Z) Wn Wr Wres B Bres = rowsOf ρ (layer3 H Mn Z Wn Wr B Wres Bres) := by
  unfold k2_pay1 layer3 pre3 sage64 resid64
  dsimp only
  simp only [shapeCast_self]
  rw [Cert.Sage.Gate.kernel_gate]
  have e1 := matmul_rows ρ none none (truncf .bf16 (rowsOf ρ Mn) bitsLt_bf16_f32) (truncf .bf16 Wn bitsLt_bf16_f32) Mn Wn (fun _ _ => rfl) (fun _ _ => rfl)
  have e2 := matmul_rows ρ none none (truncf .bf16 (rowsOf ρ H) bitsLt_bf16_f32) (truncf .bf16 Wr bitsLt_bf16_f32) H Wr (fun _ _ => rfl) (fun _ _ => rfl)
  have e3 := Cert.RowBias.biasRow_rows ρ broadcasts_S1x64_S2000x64 hb64 B
  have e4 := matmul_rows ρ none none (truncf .bf16 (rowsOf ρ Z) bitsLt_bf16_f32) (truncf .bf16 Wres bitsLt_bf16_f32) Z Wres (fun _ _ => rfl) (fun _ _ => rfl)
  have e5 := Cert.RowBias.biasRow_rows ρ broadcasts_S1x64_S2000x64 hb64 Bres
  exact congrArg gate (congrArg₂ addf (congrArg₂ addf (congrArg₂ addf e1 e2) e3) (congrArg₂ addf e4 e5))

/-- Rows 2000·t … 2000·t + 1999 of a table, written back through the output window at point t, are block t of the table. -/
theorem cut2_rows (G : S50000x64.Idx → EReal) (t : Fin cfg2.N) :
    (cfg2.win 8).cut (grid2.coords t) (rowsOf (rowsAt t) G) = ((cfg2.win 8).blk t).view.read (Elt Ideal) G := by
  obtain ⟨-, -, -, -, -, -, -, -, -, -, -, -, -, -, -, -, e0, e1⟩ := idx2 t
  funext j
  show G (ix2 (rowsAt t (j 0)) (j 1)) = G (((cfg2.win 8).blk t).view.emb j)
  refine congrArg G ?_
  funext a; apply Fin.ext
  match a with
  | ⟨0, _⟩ => show 2000 * t.val + (j 0).val = win2_8.index t (0 : Fin 2) * 2000 + 1 * (j 0).val; omega
  | ⟨1, _⟩ => show (j 1).val = win2_8.index t (1 : Fin 2) * 64 + 1 * (j 1).val; omega

/-- What point t writes back is block t of the layer of the tables the region is entered with. -/
theorem flushed2_eq (c : Dev nD) (t : Fin cfg2.N) :
    (dat2 V c).flushed 8 t = ((cfg2.win 8).blk t).view.read (Elt Ideal)
      (layer3 (V c main_v46) (V c main_v65) (V c main_arg0) (V c main_arg8) (V c main_arg9) (V c main_v66) (V c main_arg13) (V c main_v67)) := by
  show (cfg2.win 8).cut (grid2.coords t) ((dat2 V c).after 8 t) = _
  rw [after2_8]
  unfold out2_8
  rw [View.canon_unit_zero hz]
  simp only [View.ld_unit_zero (S := S2000x128) hz, View.ld_unit_zero (S := S128x64) hz, View.ld_unit_zero (S := S1x64) hz]
  rw [blk2_0, blk2_1, blk2_2, blk2_3, blk2_4, blk2_5, blk2_6, blk2_7]
  rw [pay2_rows (rowsAt t) (V c main_v46) (V c main_v65) (V c main_arg0) (V c main_arg8) (V c main_arg9) (V c main_v66) (V c main_arg13) (V c main_v67)]
  exact cut2_rows _ t

/-- An index is in point t's block iff each coordinate is in the block's range on its axis. -/
theorem mem_blk2 (t : Fin cfg2.N) (i : S50000x64.Idx) :
    i ∈ ((cfg2.win 8).blk t).view.set ↔ ∀ a : Fin 2, win2_8.index t a * S2000x64.size a ≤ (i a).val ∧ (i a).val < win2_8.index t a * S2000x64.size a + S2000x64.size a := by
  show i ∈ ((View.whole main_v68).slice (win2_8.rect t)).set ↔ _
  rw [View.set_slice_whole, Rect.mem_set_unit]
  exact Iff.rfl

/-- Row r lies in block r / 2000: the 25 blocks of 2000 rows cover the 50000 rows. -/
theorem cover2 (i : S50000x64.Idx) : ∃ t : Fin cfg2.N, (cfg2.win 8).flush t = true ∧ i ∈ ((cfg2.win 8).blk t).view.set := by
  have hi0 : (i 0).val < 50000 := (i 0).isLt
  have hi1 : (i 1).val < 64 := (i 1).isLt
  have hN : cfg2.N = 25 := N_2
  obtain ⟨t, ht⟩ : ∃ t : Fin cfg2.N, t.val = (i 0).val / 2000 := ⟨⟨(i 0).val / 2000, by omega⟩, rfl⟩
  obtain ⟨-, -, -, -, -, -, -, -, -, -, -, -, -, -, -, -, e0, e1⟩ := idx2 t
  refine ⟨t, flush2_8 t, ?_⟩
  rw [mem_blk2]
  intro a
  match a with
  | ⟨0, _⟩ => show win2_8.index t (0 : Fin 2) * 2000 ≤ (i 0).val ∧ (i 0).val < win2_8.index t (0 : Fin 2) * 2000 + 2000; omega
  | ⟨1, _⟩ => show win2_8.index t (1 : Fin 2) * 64 ≤ (i 1).val ∧ (i 1).val < win2_8.index t (1 : Fin 2) * 64 + 64; omega

/-- The region's output array after its run: the layer of the tables it was entered with. -/
theorem final2 (c : Dev nD) :
    (dat2 V c).arrAt 8 cfg2.N = layer3 (V c main_v46) (V c main_v65) (V c main_arg0) (V c main_arg8) (V c main_arg9) (V c main_v66) (V c main_arg13) (V c main_v67) :=
  (dat2 V c).arrAt_eq_of_cover 8 _ (fun t _ => flushed2_eq V c t) cover2

end Cert.KernelIdeal.Region2

end
-- ==== Proof.KernelValue.lean ====
/-
  The kernel's result as one function of its arguments. The three regions run one after the other with host
  operations between them: the host computes the neighbourhood mean of the table the previous region left (of the
  embedding, before the first), lays each bias vector as a row, and the region computes its layer of the tables it
  is entered with. Chained, the array the last region leaves is the network of the specification applied to the
  arguments: a bias vector reshaped to one row is the same vector broadcast into a row.
-/
import proofs.«176743_j2044404433055_1_alg».proof.Proof.Entry
import proofs.«176743_j2044404433055_1_alg».proof.Proof.Region0
import proofs.«176743_j2044404433055_1_alg».proof.Proof.Region1
import proofs.«176743_j2044404433055_1_alg».proof.Proof.Region2

set_option maxRecDepth 16384

noncomputable section

namespace Cert.KernelIdeal.Result

open Cert.KernelIdeal Cert.KernelIdeal.Gen Cert.KernelIdeal.Entry Idealize.ShloMosaic Idealize.ShloMosaic.TcCoe Idealize.SL.Sem
open Cert.BlockRows Cert.Sage

variable (m : (ℓ : Loc nD τ sig) → Buf (Elt Ideal) ℓ) (ρ : Dev nD → PrngReg)

/-- A vector of 128 (of 64) numbers reshaped to one row is the vector broadcast into a row. -/
theorem row_of (b : FVec Ideal S128 .f32) : shapeCast S1x128 b shapeCasts_S128_S1x128 = rowOf b :=
  reshape_row b shapeCasts_S128_S1x128 hrow
theorem row_of64 (b : FVec Ideal S64 .f32) : shapeCast S1x64 b shapeCasts_S64_S1x64 = rowOf64 b :=
  reshape_row b shapeCasts_S64_S1x64 hrow64

/-- The array the first region leaves is the network's first table. -/
theorem table1 (c : Dev nD) :
    H1 m ρ c = h1 (m ((c.tc : Thread nD τ).loc main_arg0)) (m ((c.tc : Thread nD τ).loc main_arg1)) (m ((c.tc : Thread nD τ).loc main_arg2)) (m ((c.tc : Thread nD τ).loc main_arg3)) (rowOf (m ((c.tc : Thread nD τ).loc main_arg4))) := by
  show (dat0 (V1 m ρ) c).arrAt 5 cfg0.N = _
  rw [Cert.KernelIdeal.Region0.final0 (V1 m ρ) c, V1_v22, V1_arg0, V1_arg2, V1_arg3, V1_v23, row_of]
  rfl

/-- The array the second region leaves is the network's second table. -/
theorem table2 (c : Dev nD) :
    H2 m ρ c = h2 (m ((c.tc : Thread nD τ).loc main_arg0)) (m ((c.tc : Thread nD τ).loc main_arg1)) (m ((c.tc : Thread nD τ).loc main_arg2)) (m ((c.tc : Thread nD τ).loc main_arg3)) (rowOf (m ((c.tc : Thread nD τ).loc main_arg4)))
      (m ((c.tc : Thread nD τ).loc main_arg5)) (m ((c.tc : Thread nD τ).loc main_arg6)) (rowOf (m ((c.tc : Thread nD τ).loc main_arg7))) (m ((c.tc : Thread nD τ).loc main_arg11)) (rowOf (m ((c.tc : Thread nD τ).loc main_arg12))) := by
  show (dat1 (V3 m ρ) c).arrAt 8 cfg1.N = _
  rw [Cert.KernelIdeal.Region1.final1 (V3 m ρ) c, V3_v24, V3_v43, V3_arg0, V3_arg5, V3_arg6, V3_arg11, V3_v44, V3_v45,
    row_of, row_of, table1]
  rfl

/-- The result buffer after the run is the network of the arguments. -/
theorem result (c : Dev nD) :
    W6 m ρ c (Proc.devRef .tc main_v68) = net (m ((c.tc : Thread nD τ).loc main_arg0)) (m ((c.tc : Thread nD τ).loc main_arg1)) (m ((c.tc : Thread nD τ).loc main_arg2)) (m ((c.tc : Thread nD τ).loc main_arg3)) (rowOf (m ((c.tc : Thread nD τ).loc main_arg4))) (m ((c.tc : Thread nD τ).loc main_arg5)) (m ((c.tc : Thread nD τ).loc main_arg6)) (rowOf (m ((c.tc : Thread nD τ).loc main_arg7))) (m ((c.tc : Thread nD τ).loc main_arg11)) (rowOf (m ((c.tc : Thread nD τ).loc main_arg12))) (m ((c.tc : Thread nD τ).loc main_arg8)) (m ((c.tc : Thread nD τ).loc main_arg9)) (rowOf64 (m ((c.tc : Thread nD τ).loc main_arg10))) (m ((c.tc : Thread nD τ).loc main_arg13)) (rowOf64 (m ((c.tc : Thread nD τ).loc main_arg14))) := by
  rw [W6_v68, Cert.KernelIdeal.Region2.final2 (V5 m ρ) c, V5_v46, V5_v65, V5_arg0, V5_arg8, V5_arg9, V5_arg13, V5_v66, V5_v67,
    row_of64, row_of64, table2]
  rfl

end Cert.KernelIdeal.Result

end
-- ==== Proof.RefBridge.lean ====
/-
  The reference program's stages are the network of the specification: its neighbourhood means are `mean` of the
  previous table (the same gather, scatter-add and division, spelled with the same operations), its dense layers the
  plain products and bias rows of `layer1`, `layer2` and of the third layer before the gate.
-/
import proofs.«176743_j2044404433055_1_alg».proof.Proof.Gen.ReferenceIdeal.Read
import proofs.«176743_j2044404433055_1_alg».proof.Proof.Spec
import proofs.«176743_j2044404433055_1_alg».proof.Proof.Gate

set_option maxRecDepth 16384

noncomputable section

namespace Cert.Sage.Ref

open Idealize.ShloMosaic Idealize.ShloMosaic.TcCoe Cert.ReferenceIdeal Cert.ReferenceIdeal.Gen Cert.ReferenceIdeal.Read Cert.BlockRows Cert.Sage

variable (x0 : FVec Ideal S50000x128 .f32) (x1 : (⟨S2x800000, .i32⟩ : BufTy).Contents (Elt Ideal)) (x2 x3 : FVec Ideal S128x128 .f32) (x4 : FVec Ideal S128 .f32) (x5 x6 : FVec Ideal S128x128 .f32) (x7 : FVec Ideal S128 .f32) (x8 x9 : FVec Ideal S128x64 .f32) (x10 : FVec Ideal S64 .f32) (x11 : FVec Ideal S128x128 .f32) (x12 : FVec Ideal S128 .f32) (x13 : FVec Ideal S128x64 .f32) (x14 : FVec Ideal S64 .f32)

/-- The first neighbourhood mean. -/
theorem mean1 : val_main_v22 (F := Ideal) x0 x1 = mean x0 x1 := rfl

/-- The first table. -/
theorem table1 : val_main_v29 (F := Ideal) x0 x1 x2 x3 x4 = h1 x0 x1 x2 x3 (rowOf x4) := rfl

/-- The second neighbourhood mean is the mean of the first table. -/
theorem mean2 : val_main_v48 (F := Ideal) x0 x1 x2 x3 x4 = mean (val_main_v29 (F := Ideal) x0 x1 x2 x3 x4) x1 := rfl

/-- The second table. -/
theorem table2 : val_main_v60 (F := Ideal) x0 x1 x2 x3 x4 x5 x6 x7 x11 x12
    = h2 x0 x1 x2 x3 (rowOf x4) x5 x6 (rowOf x7) x11 (rowOf x12) := rfl

/-- The third neighbourhood mean is the mean of the second table. -/
theorem mean3 : val_main_v79 (F := Ideal) x0 x1 x2 x3 x4 x5 x6 x7 x11 x12
    = mean (val_main_v60 (F := Ideal) x0 x1 x2 x3 x4 x5 x6 x7 x11 x12) x1 := rfl

/-- The third layer before its gate. -/
theorem table3 : val_main_v90 (F := Ideal) x0 x1 x2 x3 x4 x5 x6 x7 x8 x9 x10 x11 x12 x13 x14
    = pre3 (val_main_v60 (F := Ideal) x0 x1 x2 x3 x4 x5 x6 x7 x11 x12) (val_main_v79 (F := Ideal) x0 x1 x2 x3 x4 x5 x6 x7 x11 x12)
        x0 x8 x9 (rowOf64 x10) x13 (rowOf64 x14) := rfl

/-- The reference's result before its gate is the network's third layer before the gate. -/
theorem pre_net : val_main_v90 (F := Ideal) x0 x1 x2 x3 x4 x5 x6 x7 x8 x9 x10 x11 x12 x13 x14
    = pre3 (h2 x0 x1 x2 x3 (rowOf x4) x5 x6 (rowOf x7) x11 (rowOf x12))
        (mean (h2 x0 x1 x2 x3 (rowOf x4) x5 x6 (rowOf x7) x11 (rowOf x12)) x1) x0 x8 x9 (rowOf64 x10) x13 (rowOf64 x14) := by
  rw [table3, mean3, table2]

/-- The reference's result is the network. -/
theorem result : val_main_v99 (F := Ideal) x0 x1 x2 x3 x4 x5 x6 x7 x8 x9 x10 x11 x12 x13 x14
    = net x0 x1 x2 x3 (rowOf x4) x5 x6 (rowOf x7) x11 (rowOf x12) x8 x9 (rowOf64 x10) x13 (rowOf64 x14) := by
  rw [Cert.Sage.Gate.ref_gate, pre_net]
  rfl

end Cert.Sage.Ref

end
-- ==== Proof.lean ====
/-
  A three-layer graph network (mean-aggregating SAGE layers with two initial-residual projections and a logistic
  gate on the first 8 output columns), as a kernel of three tiled regions with host gathers and scatter-adds between
  them, against its plain array reference. On the extended reals both compute the network `Cert.Sage.net` of the
  arguments:

  * the kernel: each region, run block by block over 2000 rows, leaves its layer of the whole tables it was entered
    with (Region0 … Region2); the host operations before a region compute the neighbourhood mean of the previous
    table and lay the bias vectors as rows (Entry); chained, the result buffer holds the network (KernelValue);
  * the reference: its means are the same gathers and scatter-adds, its layers the same plain products, its gate a
    window written over the first 8 columns (RefBridge, Gate).

  A matrix-unit product into zeros is the plain product, a change of float format is the identity, and no law used
  needs the inputs finite: the two sides are the same sums in the same order, row by row.
-/
import proofs.«176743_j2044404433055_1_alg».proof.Defs
import proofs.«176743_j2044404433055_1_alg».proof.Proof.Gen.Kernel
import proofs.«176743_j2044404433055_1_alg».proof.Proof.Gen.Kernel.Skeleton
import proofs.«176743_j2044404433055_1_alg».proof.Proof.Gen.Kernel.Launch
import proofs.«176743_j2044404433055_1_alg».proof.Proof.Gen.Kernel.Points
import proofs.«176743_j2044404433055_1_alg».proof.Proof.Gen.Kernel.Frame
import proofs.«176743_j2044404433055_1_alg».proof.Proof.Gen.KernelIdeal
import proofs.«176743_j2044404433055_1_alg».proof.Proof.Gen.KernelIdeal.Skeleton
import proofs.«176743_j2044404433055_1_alg».proof.Proof.Gen.KernelIdeal.Launch
import proofs.«176743_j2044404433055_1_alg».proof.Proof.Gen.KernelIdeal.Points
import proofs.«176743_j2044404433055_1_alg».proof.Proof.Gen.KernelIdeal.Frame
import proofs.«176743_j2044404433055_1_alg».proof.Proof.Gen.ReferenceIdeal
import proofs.«176743_j2044404433055_1_alg».proof.Proof.Gen.Pre_finite_inputs
import proofs.«176743_j2044404433055_1_alg».proof.Proof.Gen.ReferenceIdeal.Run
import proofs.«176743_j2044404433055_1_alg».proof.Proof.Gen.ReferenceIdeal.Read
import proofs.«176743_j2044404433055_1_alg».proof.Proof.KernelRun
import proofs.«176743_j2044404433055_1_alg».proof.Proof.KernelValue
import proofs.«176743_j2044404433055_1_alg».proof.Proof.RefBridge
import Idealize.ShloMosaic.Adequacy
import Idealize.ShloMosaic.Init

set_option maxRecDepth 16384

noncomputable section

namespace Cert.Proof

open Idealize.ShloMosaic Idealize.ShloMosaic.TcCoe Idealize.SL.Sem Cert.Sage

/-- Each program runs to the end without a fault and leaves its arguments as they were. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealized kernel is the kernel's own text read on the extended reals: nothing was rewritten. -/
theorem preserves : Cert.preserves_Kernel_KernelIdeal := trivial

/-- From memories agreeing on the arguments both idealized programs end with the network of the arguments. -/
theorem algebraic : Cert.algebraic_KernelIdeal_ReferenceIdeal := by
  intro m ρ m' ρ' _ hagree
  refine ⟨fun c => net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (rowOf (m ((c.tc : Thread Cert.KernelIdeal.nD Cert.KernelIdeal.τ).loc Cert.KernelIdeal.main_arg4))) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (rowOf (m ((c.tc : Thread Cert.KernelIdeal.nD Cert.KernelIdeal.τ).loc Cert.KernelIdeal.main_arg7))) (m ((c.tc : Thread Cert.KernelIdeal.nD Cert.KernelIdeal.τ).loc Cert.KernelIdeal.main_arg11)) (rowOf (m ((c.tc : Thread Cert.KernelIdeal.nD Cert.KernelIdeal.τ).loc Cert.KernelIdeal.main_arg12))) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (rowOf64 (m ((c.tc : Thread Cert.KernelIdeal.nD Cert.KernelIdeal.τ).loc Cert.KernelIdeal.main_arg10))) (m ((c.tc : Thread Cert.KernelIdeal.nD Cert.KernelIdeal.τ).loc Cert.KernelIdeal.main_arg13)) (rowOf64 (m ((c.tc : Thread Cert.KernelIdeal.nD Cert.KernelIdeal.τ).loc Cert.KernelIdeal.main_arg14))), ?_, ?_⟩
  · exact (θ_run Cert.KernelIdeal.defs _ _).mono
      (fun r h c => ⟨(h c).1.trans (Cert.KernelIdeal.Result.result m ρ c), (h c).2⟩)
      (Cert.KernelIdeal.Named.run (F := Ideal) m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8, a9, a10, a11, a12, a13, a14⟩ := hagree c
    rw [Cert.ReferenceIdeal.Read.val_main_v99_eq, Cert.Sage.Ref.result, a0, a1, a2, a3, a4, a5, a6, a7, a8, a9, a10, a11, a12, a13, a14]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
